-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v278)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v278) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x640000 : Shape := ⟨2, ![2, 640000]⟩
abbrev S640000 : Shape := ⟨1, ![640000]⟩
abbrev S100000x128 : Shape := ⟨2, ![100000, 128]⟩
abbrev S3x4x128x128 : Shape := ⟨4, ![3, 4, 128, 128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x4x128x128 : S_.BroadcastsInDim S3x4x128x128 (![] : Fin 0 → Fin S3x4x128x128.rank)
  reducesTo_S3x4x128x128_S_d0_1_2_3 : S3x4x128x128.ReducesTo [0, 1, 2, 3] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : IVec S2x640000 32) (main_arg1 : IVec S640000 32) (main_arg2 : FVec F S100000x128 .f32) (main_arg3 : FVec F S3x4x128x128 .f32) (main_arg4 : FVec F S3x128x128 .f32) (main_arg5 : FVec F S3x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x4x128x128 .f32 := Host.absf main_arg3
  let main_cst_0 : FVec F S_ .f32 := constant S_ .f32 0x7F800000#32
  let main_v5 : FVec F S3x4x128x128 .f32 := broadcastInDim S3x4x128x128 ![] bcast_S_S3x4x128x128 main_cst_0
  let main_v6 : IVec S3x4x128x128 1 := cmpf .olt main_v4 main_v5
  let main_c_1 : IVec S_ 1 := constantI S_ 1 1#1
  let main_v7 : IVec S_ 1 := (fun x v => Host.reduce IntOp.andi x v reducesTo_S3x4x128x128_S_d0_1_2_3 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S2x640000 : Shape := ⟨2, ![2, 640000]⟩
abbrev S640000 : Shape := ⟨1, ![640000]⟩
abbrev S100000x128 : Shape := ⟨2, ![100000, 128]⟩
abbrev S3x4x128x128 : Shape := ⟨4, ![3, 4, 128, 128]⟩
abbrev S3x128x128 : Shape := ⟨3, ![3, 128, 128]⟩
abbrev S3x128 : Shape := ⟨2, ![3, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S4000x128 : Shape := ⟨2, ![4000, 128]⟩

abbrev nBuf : Space → Nat
  | .hbm => 339
  | .vmem => 54
  | .smem => 0
  | _ => 0

abbrev hbmTy0_0 (i : Nat) : BufTy := match i % 128 with
  | 0 => ⟨S2x640000, .i32⟩
  | 1 => ⟨S640000, .i32⟩
  | 2 => ⟨S100000x128, .f32⟩
  | 3 => ⟨S3x4x128x128, .f32⟩
  | 4 => ⟨S3x128x128, .f32⟩
  | 5 => ⟨S3x128, .f32⟩
  | 6 => ⟨S1x640000, .i32⟩
  | 7 => ⟨S640000, .i32⟩
  | 8 => ⟨S1x640000, .i32⟩
  | 9 => ⟨S640000, .i32⟩
  | 10 => ⟨S_, .i32⟩
  | 11 => ⟨S640000, .i32⟩
  | 12 => ⟨S640000, .i1⟩
  | 13 => ⟨S_, .i32⟩
  | 14 => ⟨S640000, .i32⟩
  | 15 => ⟨S640000, .i32⟩
  | 16 => ⟨S640000, .i32⟩
  | 17 => ⟨S640000x1, .i32⟩
  | 18 => ⟨S640000x128, .f32⟩
  | 19 => ⟨S_, .i32⟩
  | 20 => ⟨S640000, .i32⟩
  | 21 => ⟨S640000, .i1⟩
  | 22 => ⟨S640000, .f32⟩
  | 23 => ⟨S640000x1, .f32⟩
  | 24 => ⟨S640000x128, .f32⟩
  | 25 => ⟨S640000x128, .f32⟩
  | 26 => ⟨S_, .f32⟩
  | 27 => ⟨S100000x128, .f32⟩
  | 28 => ⟨S640000x1, .i32⟩
  | 29 => ⟨S100000x128, .f32⟩
  | 30 => ⟨S_, .f32⟩
  | 31 => ⟨S100000, .f32⟩
  | 32 => ⟨S640000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S_, .i32⟩
  | 41 => ⟨S640000, .i32⟩
  | 42 => ⟨S640000, .i1⟩
  | 43 => ⟨S640000, .f32⟩
  | 44 => ⟨S640000x1, .f32⟩
  | 45 => ⟨S640000x128, .f32⟩
  | 46 => ⟨S640000x128, .f32⟩
  | 47 => ⟨S_, .f32⟩
  | 48 => ⟨S100000x128, .f32⟩
  | 49 => ⟨S640000x1, .i32⟩
  | 50 => ⟨S100000x128, .f32⟩
  | 51 => ⟨S_, .f32⟩
  | 52 => ⟨S100000, .f32⟩
  | 53 => ⟨S640000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S_, .i32⟩
  | 62 => ⟨S640000, .i32⟩
  | 63 => ⟨S640000, .i1⟩
  | 64 => ⟨S640000, .f32⟩
  | 65 => ⟨S640000x1, .f32⟩
  | 66 => ⟨S640000x128, .f32⟩
  | 67 => ⟨S640000x128, .f32⟩
  | 68 => ⟨S_, .f32⟩
  | 69 => ⟨S100000x128, .f32⟩
  | 70 => ⟨S640000x1, .i32⟩
  | 71 => ⟨S100000x128, .f32⟩
  | 72 => ⟨S_, .f32⟩
  | 73 => ⟨S100000, .f32⟩
  | 74 => ⟨S640000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S_, .i32⟩
  | 83 => ⟨S640000, .i32⟩
  | 84 => ⟨S640000, .i1⟩
  | 85 => ⟨S640000, .f32⟩
  | 86 => ⟨S640000x1, .f32⟩
  | 87 => ⟨S640000x128, .f32⟩
  | 88 => ⟨S640000x128, .f32⟩
  | 89 => ⟨S_, .f32⟩
  | 90 => ⟨S100000x128, .f32⟩
  | 91 => ⟨S640000x1, .i32⟩
  | 92 => ⟨S100000x128, .f32⟩
  | 93 => ⟨S_, .f32⟩
  | 94 => ⟨S100000, .f32⟩
  | 95 => ⟨S640000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S1x1x128x128, .f32⟩
  | 104 => ⟨S128x128, .f32⟩
  | 105 => ⟨S1x1x128x128, .f32⟩
  | 106 => ⟨S128x128, .f32⟩
  | 107 => ⟨S1x1x128x128, .f32⟩
  | 108 => ⟨S128x128, .f32⟩
  | 109 => ⟨S1x1x128x128, .f32⟩
  | 110 => ⟨S128x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S100000x128, .f32⟩
  | 117 => ⟨S1x640000, .i32⟩
  | 118 => ⟨S640000, .i32⟩
  | 119 => ⟨S1x640000, .i32⟩
  | 120 => ⟨S640000, .i32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S2x640000, .i32⟩

abbrev hbmTy0_1 (i : Nat) : BufTy := match i % 128 with
  | 0 => ⟨S640000x1, .i32⟩
  | 1 => ⟨S640000x128, .f32⟩
  | 2 => ⟨S_, .i32⟩
  | 3 => ⟨S640000, .i32⟩
  | 4 => ⟨S640000, .i1⟩
  | 5 => ⟨S640000, .f32⟩
  | 6 => ⟨S640000x1, .f32⟩
  | 7 => ⟨S640000x128, .f32⟩
  | 8 => ⟨S640000x128, .f32⟩
  | 9 => ⟨S_, .f32⟩
  | 10 => ⟨S100000x128, .f32⟩
  | 11 => ⟨S640000x1, .i32⟩
  | 12 => ⟨S100000x128, .f32⟩
  | 13 => ⟨S_, .f32⟩
  | 14 => ⟨S100000, .f32⟩
  | 15 => ⟨S640000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x128, .f32⟩
  | 22 => ⟨S100000x128, .f32⟩
  | 23 => ⟨S_, .i32⟩
  | 24 => ⟨S640000, .i32⟩
  | 25 => ⟨S640000, .i1⟩
  | 26 => ⟨S640000, .f32⟩
  | 27 => ⟨S640000x1, .f32⟩
  | 28 => ⟨S640000x128, .f32⟩
  | 29 => ⟨S640000x128, .f32⟩
  | 30 => ⟨S_, .f32⟩
  | 31 => ⟨S100000x128, .f32⟩
  | 32 => ⟨S640000x1, .i32⟩
  | 33 => ⟨S100000x128, .f32⟩
  | 34 => ⟨S_, .f32⟩
  | 35 => ⟨S100000, .f32⟩
  | 36 => ⟨S640000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .i32⟩
  | 45 => ⟨S640000, .i32⟩
  | 46 => ⟨S640000, .i1⟩
  | 47 => ⟨S640000, .f32⟩
  | 48 => ⟨S640000x1, .f32⟩
  | 49 => ⟨S640000x128, .f32⟩
  | 50 => ⟨S640000x128, .f32⟩
  | 51 => ⟨S_, .f32⟩
  | 52 => ⟨S100000x128, .f32⟩
  | 53 => ⟨S640000x1, .i32⟩
  | 54 => ⟨S100000x128, .f32⟩
  | 55 => ⟨S_, .f32⟩
  | 56 => ⟨S100000, .f32⟩
  | 57 => ⟨S640000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S_, .i32⟩
  | 66 => ⟨S640000, .i32⟩
  | 67 => ⟨S640000, .i1⟩
  | 68 => ⟨S640000, .f32⟩
  | 69 => ⟨S640000x1, .f32⟩
  | 70 => ⟨S640000x128, .f32⟩
  | 71 => ⟨S640000x128, .f32⟩
  | 72 => ⟨S_, .f32⟩
  | 73 => ⟨S100000x128, .f32⟩
  | 74 => ⟨S640000x1, .i32⟩
  | 75 => ⟨S100000x128, .f32⟩
  | 76 => ⟨S_, .f32⟩
  | 77 => ⟨S100000, .f32⟩
  | 78 => ⟨S640000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S1x1x128x128, .f32⟩
  | 87 => ⟨S128x128, .f32⟩
  | 88 => ⟨S1x1x128x128, .f32⟩
  | 89 => ⟨S128x128, .f32⟩
  | 90 => ⟨S1x1x128x128, .f32⟩
  | 91 => ⟨S128x128, .f32⟩
  | 92 => ⟨S1x1x128x128, .f32⟩
  | 93 => ⟨S128x128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S100000x128, .f32⟩
  | 100 => ⟨S1x640000, .i32⟩
  | 101 => ⟨S640000, .i32⟩
  | 102 => ⟨S1x640000, .i32⟩
  | 103 => ⟨S640000, .i32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x128, .f32⟩
  | 113 => ⟨S_, .i32⟩
  | 114 => ⟨S640000, .i32⟩
  | 115 => ⟨S640000, .i1⟩
  | 116 => ⟨S640000, .f32⟩
  | 117 => ⟨S640000x1, .f32⟩
  | 118 => ⟨S640000x128, .f32⟩
  | 119 => ⟨S640000x128, .f32⟩
  | 120 => ⟨S_, .f32⟩
  | 121 => ⟨S100000x128, .f32⟩
  | 122 => ⟨S640000x1, .i32⟩
  | 123 => ⟨S100000x128, .f32⟩
  | 124 => ⟨S_, .f32⟩
  | 125 => ⟨S100000, .f32⟩
  | 126 => ⟨S640000x1, .i32⟩
  | 127 => ⟨S100000, .f32⟩
  | _ => ⟨S2x640000, .i32⟩

abbrev hbmTy0_2 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S_, .i32⟩
  | 7 => ⟨S640000, .i32⟩
  | 8 => ⟨S640000, .i1⟩
  | 9 => ⟨S640000, .f32⟩
  | 10 => ⟨S640000x1, .f32⟩
  | 11 => ⟨S640000x128, .f32⟩
  | 12 => ⟨S640000x128, .f32⟩
  | 13 => ⟨S_, .f32⟩
  | 14 => ⟨S100000x128, .f32⟩
  | 15 => ⟨S640000x1, .i32⟩
  | 16 => ⟨S100000x128, .f32⟩
  | 17 => ⟨S_, .f32⟩
  | 18 => ⟨S100000, .f32⟩
  | 19 => ⟨S640000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S_, .i32⟩
  | 28 => ⟨S640000, .i32⟩
  | 29 => ⟨S640000, .i1⟩
  | 30 => ⟨S640000, .f32⟩
  | 31 => ⟨S640000x1, .f32⟩
  | 32 => ⟨S640000x128, .f32⟩
  | 33 => ⟨S640000x128, .f32⟩
  | 34 => ⟨S_, .f32⟩
  | 35 => ⟨S100000x128, .f32⟩
  | 36 => ⟨S640000x1, .i32⟩
  | 37 => ⟨S100000x128, .f32⟩
  | 38 => ⟨S_, .f32⟩
  | 39 => ⟨S100000, .f32⟩
  | 40 => ⟨S640000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S_, .i32⟩
  | 49 => ⟨S640000, .i32⟩
  | 50 => ⟨S640000, .i1⟩
  | 51 => ⟨S640000, .f32⟩
  | 52 => ⟨S640000x1, .f32⟩
  | 53 => ⟨S640000x128, .f32⟩
  | 54 => ⟨S640000x128, .f32⟩
  | 55 => ⟨S_, .f32⟩
  | 56 => ⟨S100000x128, .f32⟩
  | 57 => ⟨S640000x1, .i32⟩
  | 58 => ⟨S100000x128, .f32⟩
  | 59 => ⟨S_, .f32⟩
  | 60 => ⟨S100000, .f32⟩
  | 61 => ⟨S640000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S1x1x128x128, .f32⟩
  | 70 => ⟨S128x128, .f32⟩
  | 71 => ⟨S1x1x128x128, .f32⟩
  | 72 => ⟨S128x128, .f32⟩
  | 73 => ⟨S1x1x128x128, .f32⟩
  | 74 => ⟨S128x128, .f32⟩
  | 75 => ⟨S1x1x128x128, .f32⟩
  | 76 => ⟨S128x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S100000x128, .f32⟩
  | _ => ⟨S2x640000, .i32⟩

abbrev hbmTy (i : Nat) : BufTy := match i / 128 with
  | 0 => hbmTy0_0 i
  | 1 => hbmTy0_1 i
  | 2 => hbmTy0_2 i
  | _ => ⟨S2x640000, .i32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S128x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | _, _ => ⟨S2x640000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_c_16 : Ref sig .tc := ⟨.hbm, 121, rfl⟩
abbrev main_v97 : Ref sig .tc := ⟨.hbm, 122, rfl⟩
abbrev main_v98 : Ref sig .tc := ⟨.hbm, 123, rfl⟩
abbrev main_c_17 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_c_18 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_20 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_21 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_22 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_24 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_25 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_c_26 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_27 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_28 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_29 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_c_30 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_31 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_32 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_33 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_c_34 : Ref sig .tc := ⟨.hbm, 232, rfl⟩
abbrev main_v190 : Ref sig .tc := ⟨.hbm, 233, rfl⟩
abbrev main_v191 : Ref sig .tc := ⟨.hbm, 234, rfl⟩
abbrev main_c_35 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_c_36 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_cst_37 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_cst_38 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_cst_39 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_c_40 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_cst_41 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_42 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_cst_43 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_c_44 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_45 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_cst_46 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_cst_47 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_c_48 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_cst_49 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_cst_50 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_cst_51 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg10_0 : Ref sig .tc := ⟨.vmem, 51, rfl⟩
abbrev cc2_stg11_0 : Ref sig .tc := ⟨.vmem, 52, rfl⟩
abbrev cc2_stg11_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem9_0 : DmaSem sig := 50
abbrev cc2_sem10_0 : DmaSem sig := 51
abbrev cc2_sem11_0 : DmaSem sig := 52
abbrev cc2_sem11_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x4x128x128_S1x1x128x128_0_0_0_0 : S3x4x128x128.Slices ![0, 0, 0, 0] S1x1x128x128
  shapeCasts_S1x1x128x128_S128x128 : S1x1x128x128.ShapeCasts S128x128
  slices_S3x4x128x128_S1x1x128x128_0_1_0_0 : S3x4x128x128.Slices ![0, 1, 0, 0] S1x1x128x128
  slices_S3x4x128x128_S1x1x128x128_0_2_0_0 : S3x4x128x128.Slices ![0, 2, 0, 0] S1x1x128x128
  slices_S3x4x128x128_S1x1x128x128_0_3_0_0 : S3x4x128x128.Slices ![0, 3, 0, 0] S1x1x128x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  slices_S3x4x128x128_S1x1x128x128_1_0_0_0 : S3x4x128x128.Slices ![1, 0, 0, 0] S1x1x128x128
  slices_S3x4x128x128_S1x1x128x128_1_1_0_0 : S3x4x128x128.Slices ![1, 1, 0, 0] S1x1x128x128
  slices_S3x4x128x128_S1x1x128x128_1_2_0_0 : S3x4x128x128.Slices ![1, 2, 0, 0] S1x1x128x128
  slices_S3x4x128x128_S1x1x128x128_1_3_0_0 : S3x4x128x128.Slices ![1, 3, 0, 0] S1x1x128x128
  slices_S3x128x128_S1x128x128_1_0_0 : S3x128x128.Slices ![1, 0, 0] S1x128x128
  slices_S3x128_S1x128_1_0 : S3x128.Slices ![1, 0] S1x128
  slices_S3x4x128x128_S1x1x128x128_2_0_0_0 : S3x4x128x128.Slices ![2, 0, 0, 0] S1x1x128x128
  slices_S3x4x128x128_S1x1x128x128_2_1_0_0 : S3x4x128x128.Slices ![2, 1, 0, 0] S1x1x128x128
  slices_S3x4x128x128_S1x1x128x128_2_2_0_0 : S3x4x128x128.Slices ![2, 2, 0, 0] S1x1x128x128
  slices_S3x4x128x128_S1x1x128x128_2_3_0_0 : S3x4x128x128.Slices ![2, 3, 0, 0] S1x1x128x128
  slices_S3x128x128_S1x128x128_2_0_0 : S3x128x128.Slices ![2, 0, 0] S1x128x128
  slices_S3x128_S1x128_2_0 : S3x128.Slices ![2, 0] S1x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S100000x128.size a
  hwx1_11 : ∀ i : grid1.Coords, EltTy.bits .f32 = 32 ∨ (Rect.block (s := S100000x128) S4000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x128.size a ≤ S100000x128.size a
  hwx2_11 : ∀ i : grid2.Coords, EltTy.bits .f32 = 32 ∨ (Rect.block (s := S100000x128) S4000x128.size (cc2_transform_11 i) (hinb2_11 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg2) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v78) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v88) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v82) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v84) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v86) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v91) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v92) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v92) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v120) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v137) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v154) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v171) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v181) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v173) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v175) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v177) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v179) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v184) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v185) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v185) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v213) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v230) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v247) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v264) S4000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v274) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v266) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v268) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v270) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v272) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v277) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v278) S4000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S2x640000 : Shape := ⟨2, ![2, 640000]⟩
abbrev S640000 : Shape := ⟨1, ![640000]⟩
abbrev S100000x128 : Shape := ⟨2, ![100000, 128]⟩
abbrev S3x4x128x128 : Shape := ⟨4, ![3, 4, 128, 128]⟩
abbrev S3x128x128 : Shape := ⟨3, ![3, 128, 128]⟩
abbrev S3x128 : Shape := ⟨2, ![3, 128]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩

abbrev nBuf : Space → Nat
  | .hbm => 381
  | .vmem => 0
  | .smem => 0
  | _ => 0

abbrev hbmTy0_0 (i : Nat) : BufTy := match i % 128 with
  | 0 => ⟨S2x640000, .i32⟩
  | 1 => ⟨S640000, .i32⟩
  | 2 => ⟨S100000x128, .f32⟩
  | 3 => ⟨S3x4x128x128, .f32⟩
  | 4 => ⟨S3x128x128, .f32⟩
  | 5 => ⟨S3x128, .f32⟩
  | 6 => ⟨S1x4x128x128, .f32⟩
  | 7 => ⟨S4x128x128, .f32⟩
  | 8 => ⟨S1x128x128, .f32⟩
  | 9 => ⟨S128x128, .f32⟩
  | 10 => ⟨S1x128, .f32⟩
  | 11 => ⟨S128, .f32⟩
  | 12 => ⟨S1x640000, .i32⟩
  | 13 => ⟨S640000, .i32⟩
  | 14 => ⟨S1x640000, .i32⟩
  | 15 => ⟨S640000, .i32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S100000x128, .f32⟩
  | 26 => ⟨S1x128, .f32⟩
  | 27 => ⟨S100000x128, .f32⟩
  | 28 => ⟨S100000x128, .f32⟩
  | 29 => ⟨S_, .i32⟩
  | 30 => ⟨S640000, .i32⟩
  | 31 => ⟨S640000, .i1⟩
  | 32 => ⟨S640000, .f32⟩
  | 33 => ⟨S640000x1, .f32⟩
  | 34 => ⟨S640000x128, .f32⟩
  | 35 => ⟨S640000x128, .f32⟩
  | 36 => ⟨S_, .f32⟩
  | 37 => ⟨S100000x128, .f32⟩
  | 38 => ⟨S640000x1, .i32⟩
  | 39 => ⟨S100000x128, .f32⟩
  | 40 => ⟨S_, .f32⟩
  | 41 => ⟨S100000, .f32⟩
  | 42 => ⟨S640000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S100000x128, .f32⟩
  | 54 => ⟨S_, .i32⟩
  | 55 => ⟨S640000, .i32⟩
  | 56 => ⟨S640000, .i1⟩
  | 57 => ⟨S640000, .f32⟩
  | 58 => ⟨S640000x1, .f32⟩
  | 59 => ⟨S640000x128, .f32⟩
  | 60 => ⟨S640000x128, .f32⟩
  | 61 => ⟨S_, .f32⟩
  | 62 => ⟨S100000x128, .f32⟩
  | 63 => ⟨S640000x1, .i32⟩
  | 64 => ⟨S100000x128, .f32⟩
  | 65 => ⟨S_, .f32⟩
  | 66 => ⟨S100000, .f32⟩
  | 67 => ⟨S640000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S100000x128, .f32⟩
  | 79 => ⟨S_, .i32⟩
  | 80 => ⟨S640000, .i32⟩
  | 81 => ⟨S640000, .i1⟩
  | 82 => ⟨S640000, .f32⟩
  | 83 => ⟨S640000x1, .f32⟩
  | 84 => ⟨S640000x128, .f32⟩
  | 85 => ⟨S640000x128, .f32⟩
  | 86 => ⟨S_, .f32⟩
  | 87 => ⟨S100000x128, .f32⟩
  | 88 => ⟨S640000x1, .i32⟩
  | 89 => ⟨S100000x128, .f32⟩
  | 90 => ⟨S_, .f32⟩
  | 91 => ⟨S100000, .f32⟩
  | 92 => ⟨S640000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S1x128x128, .f32⟩
  | 101 => ⟨S128x128, .f32⟩
  | 102 => ⟨S100000x128, .f32⟩
  | 103 => ⟨S100000x128, .f32⟩
  | 104 => ⟨S_, .i32⟩
  | 105 => ⟨S640000, .i32⟩
  | 106 => ⟨S640000, .i1⟩
  | 107 => ⟨S640000, .f32⟩
  | 108 => ⟨S640000x1, .f32⟩
  | 109 => ⟨S640000x128, .f32⟩
  | 110 => ⟨S640000x128, .f32⟩
  | 111 => ⟨S_, .f32⟩
  | 112 => ⟨S100000x128, .f32⟩
  | 113 => ⟨S640000x1, .i32⟩
  | 114 => ⟨S100000x128, .f32⟩
  | 115 => ⟨S_, .f32⟩
  | 116 => ⟨S100000, .f32⟩
  | 117 => ⟨S640000x1, .i32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S1x128x128, .f32⟩
  | 126 => ⟨S128x128, .f32⟩
  | 127 => ⟨S100000x128, .f32⟩
  | _ => ⟨S2x640000, .i32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S1x4x128x128, .f32⟩
  | 5 => ⟨S4x128x128, .f32⟩
  | 6 => ⟨S1x128x128, .f32⟩
  | 7 => ⟨S128x128, .f32⟩
  | 8 => ⟨S1x128, .f32⟩
  | 9 => ⟨S128, .f32⟩
  | 10 => ⟨S1x640000, .i32⟩
  | 11 => ⟨S640000, .i32⟩
  | 12 => ⟨S1x640000, .i32⟩
  | 13 => ⟨S640000, .i32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x128, .f32⟩
  | 23 => ⟨S100000x128, .f32⟩
  | 24 => ⟨S1x128, .f32⟩
  | 25 => ⟨S100000x128, .f32⟩
  | 26 => ⟨S100000x128, .f32⟩
  | 27 => ⟨S_, .i32⟩
  | 28 => ⟨S640000, .i32⟩
  | 29 => ⟨S640000, .i1⟩
  | 30 => ⟨S640000, .f32⟩
  | 31 => ⟨S640000x1, .f32⟩
  | 32 => ⟨S640000x128, .f32⟩
  | 33 => ⟨S640000x128, .f32⟩
  | 34 => ⟨S_, .f32⟩
  | 35 => ⟨S100000x128, .f32⟩
  | 36 => ⟨S640000x1, .i32⟩
  | 37 => ⟨S100000x128, .f32⟩
  | 38 => ⟨S_, .f32⟩
  | 39 => ⟨S100000, .f32⟩
  | 40 => ⟨S640000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S100000x128, .f32⟩
  | 52 => ⟨S_, .i32⟩
  | 53 => ⟨S640000, .i32⟩
  | 54 => ⟨S640000, .i1⟩
  | 55 => ⟨S640000, .f32⟩
  | 56 => ⟨S640000x1, .f32⟩
  | 57 => ⟨S640000x128, .f32⟩
  | 58 => ⟨S640000x128, .f32⟩
  | 59 => ⟨S_, .f32⟩
  | 60 => ⟨S100000x128, .f32⟩
  | 61 => ⟨S640000x1, .i32⟩
  | 62 => ⟨S100000x128, .f32⟩
  | 63 => ⟨S_, .f32⟩
  | 64 => ⟨S100000, .f32⟩
  | 65 => ⟨S640000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S100000x128, .f32⟩
  | 77 => ⟨S_, .i32⟩
  | 78 => ⟨S640000, .i32⟩
  | 79 => ⟨S640000, .i1⟩
  | 80 => ⟨S640000, .f32⟩
  | 81 => ⟨S640000x1, .f32⟩
  | 82 => ⟨S640000x128, .f32⟩
  | 83 => ⟨S640000x128, .f32⟩
  | 84 => ⟨S_, .f32⟩
  | 85 => ⟨S100000x128, .f32⟩
  | 86 => ⟨S640000x1, .i32⟩
  | 87 => ⟨S100000x128, .f32⟩
  | 88 => ⟨S_, .f32⟩
  | 89 => ⟨S100000, .f32⟩
  | 90 => ⟨S640000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S1x128x128, .f32⟩
  | 99 => ⟨S128x128, .f32⟩
  | 100 => ⟨S100000x128, .f32⟩
  | 101 => ⟨S100000x128, .f32⟩
  | 102 => ⟨S_, .i32⟩
  | 103 => ⟨S640000, .i32⟩
  | 104 => ⟨S640000, .i1⟩
  | 105 => ⟨S640000, .f32⟩
  | 106 => ⟨S640000x1, .f32⟩
  | 107 => ⟨S640000x128, .f32⟩
  | 108 => ⟨S640000x128, .f32⟩
  | 109 => ⟨S_, .f32⟩
  | 110 => ⟨S100000x128, .f32⟩
  | 111 => ⟨S640000x1, .i32⟩
  | 112 => ⟨S100000x128, .f32⟩
  | 113 => ⟨S_, .f32⟩
  | 114 => ⟨S100000, .f32⟩
  | 115 => ⟨S640000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S100000x128, .f32⟩
  | 127 => ⟨S_, .f32⟩
  | _ => ⟨S2x640000, .i32⟩

abbrev hbmTy0_2 (i : Nat) : BufTy := match i % 128 with
  | 0 => ⟨S100000x128, .f32⟩
  | 1 => ⟨S100000x128, .f32⟩
  | 2 => ⟨S1x4x128x128, .f32⟩
  | 3 => ⟨S4x128x128, .f32⟩
  | 4 => ⟨S1x128x128, .f32⟩
  | 5 => ⟨S128x128, .f32⟩
  | 6 => ⟨S1x128, .f32⟩
  | 7 => ⟨S128, .f32⟩
  | 8 => ⟨S1x640000, .i32⟩
  | 9 => ⟨S640000, .i32⟩
  | 10 => ⟨S1x640000, .i32⟩
  | 11 => ⟨S640000, .i32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S100000x128, .f32⟩
  | 22 => ⟨S1x128, .f32⟩
  | 23 => ⟨S100000x128, .f32⟩
  | 24 => ⟨S100000x128, .f32⟩
  | 25 => ⟨S_, .i32⟩
  | 26 => ⟨S640000, .i32⟩
  | 27 => ⟨S640000, .i1⟩
  | 28 => ⟨S640000, .f32⟩
  | 29 => ⟨S640000x1, .f32⟩
  | 30 => ⟨S640000x128, .f32⟩
  | 31 => ⟨S640000x128, .f32⟩
  | 32 => ⟨S_, .f32⟩
  | 33 => ⟨S100000x128, .f32⟩
  | 34 => ⟨S640000x1, .i32⟩
  | 35 => ⟨S100000x128, .f32⟩
  | 36 => ⟨S_, .f32⟩
  | 37 => ⟨S100000, .f32⟩
  | 38 => ⟨S640000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S100000x128, .f32⟩
  | 50 => ⟨S_, .i32⟩
  | 51 => ⟨S640000, .i32⟩
  | 52 => ⟨S640000, .i1⟩
  | 53 => ⟨S640000, .f32⟩
  | 54 => ⟨S640000x1, .f32⟩
  | 55 => ⟨S640000x128, .f32⟩
  | 56 => ⟨S640000x128, .f32⟩
  | 57 => ⟨S_, .f32⟩
  | 58 => ⟨S100000x128, .f32⟩
  | 59 => ⟨S640000x1, .i32⟩
  | 60 => ⟨S100000x128, .f32⟩
  | 61 => ⟨S_, .f32⟩
  | 62 => ⟨S100000, .f32⟩
  | 63 => ⟨S640000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S100000x128, .f32⟩
  | 75 => ⟨S_, .i32⟩
  | 76 => ⟨S640000, .i32⟩
  | 77 => ⟨S640000, .i1⟩
  | 78 => ⟨S640000, .f32⟩
  | 79 => ⟨S640000x1, .f32⟩
  | 80 => ⟨S640000x128, .f32⟩
  | 81 => ⟨S640000x128, .f32⟩
  | 82 => ⟨S_, .f32⟩
  | 83 => ⟨S100000x128, .f32⟩
  | 84 => ⟨S640000x1, .i32⟩
  | 85 => ⟨S100000x128, .f32⟩
  | 86 => ⟨S_, .f32⟩
  | 87 => ⟨S100000, .f32⟩
  | 88 => ⟨S640000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S100000x128, .f32⟩
  | 100 => ⟨S_, .i32⟩
  | 101 => ⟨S640000, .i32⟩
  | 102 => ⟨S640000, .i1⟩
  | 103 => ⟨S640000, .f32⟩
  | 104 => ⟨S640000x1, .f32⟩
  | 105 => ⟨S640000x128, .f32⟩
  | 106 => ⟨S640000x128, .f32⟩
  | 107 => ⟨S_, .f32⟩
  | 108 => ⟨S100000x128, .f32⟩
  | 109 => ⟨S640000x1, .i32⟩
  | 110 => ⟨S100000x128, .f32⟩
  | 111 => ⟨S_, .f32⟩
  | 112 => ⟨S100000, .f32⟩
  | 113 => ⟨S640000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S1x128x128, .f32⟩
  | 122 => ⟨S128x128, .f32⟩
  | 123 => ⟨S100000x128, .f32⟩
  | 124 => ⟨S100000x128, .f32⟩
  | _ => ⟨S2x640000, .i32⟩

abbrev hbmTy (i : Nat) : BufTy := match i / 128 with
  | 0 => hbmTy0_0 i
  | 1 => hbmTy0_1 i
  | 2 => hbmTy0_2 i
  | _ => ⟨S2x640000, .i32⟩

abbrev bufTy : (tb : Table) → Fin (tcTables nBuf tb) → BufTy
  | .hbm, ⟨i, _⟩ => hbmTy i
  | _, _ => ⟨S2x640000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c_12 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_13 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_call0_cst : Ref sig .tc := ⟨.hbm, 129, rfl⟩
abbrev main_call0_v0 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_c_16 : Ref sig .tc := ⟨.hbm, 142, rfl⟩
abbrev main_v116 : Ref sig .tc := ⟨.hbm, 143, rfl⟩
abbrev main_v117 : Ref sig .tc := ⟨.hbm, 144, rfl⟩
abbrev main_c_17 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_c_18 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_19 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_20 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_21 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_c_22 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_23 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_24 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_25 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_c_26 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_cst_27 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_cst_28 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_29 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_c_30 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_cst_31 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_cst_32 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_cst_33 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_call1_cst : Ref sig .tc := ⟨.hbm, 255, rfl⟩
abbrev main_call1_v0 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_c_34 : Ref sig .tc := ⟨.hbm, 268, rfl⟩
abbrev main_v222 : Ref sig .tc := ⟨.hbm, 269, rfl⟩
abbrev main_v223 : Ref sig .tc := ⟨.hbm, 270, rfl⟩
abbrev main_c_35 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_c_36 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_cst_37 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_cst_38 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_cst_39 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_c_40 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_cst_41 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_cst_42 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_cst_43 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_c_44 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_cst_45 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_cst_46 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_cst_47 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_c_48 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_cst_49 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_cst_50 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_cst_51 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_v316 : Ref sig .tc := ⟨.hbm, 380, rfl⟩

abbrev nD : Nat := 1
abbrev τ : Topo := Topo.v7x

variable {F : FTy → Type} [FloatOps F]

class Facts₀ : Prop where
  slices_S3x4x128x128_S1x4x128x128_0_0_0_0 : S3x4x128x128.Slices ![0, 0, 0, 0] S1x4x128x128
  shapeCasts_S1x4x128x128_S4x128x128 : S1x4x128x128.ShapeCasts S4x128x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  slices_S3x4x128x128_S1x4x128x128_1_0_0_0 : S3x4x128x128.Slices ![1, 0, 0, 0] S1x4x128x128
  slices_S3x128x128_S1x128x128_1_0_0 : S3x128x128.Slices ![1, 0, 0] S1x128x128
  slices_S3x128_S1x128_1_0 : S3x128.Slices ![1, 0] S1x128
  slices_S3x4x128x128_S1x4x128x128_2_0_0_0 : S3x4x128x128.Slices ![2, 0, 0, 0] S1x4x128x128
  slices_S3x128x128_S1x128x128_2_0_0 : S3x128x128.Slices ![2, 0, 0] S1x128x128
  slices_S3x128_S1x128_2_0 : S3x128.Slices ![2, 0] S1x128
  gather_S100000x128_S640000x1_S640000x128_1_0_n_n_0_1_1128_wf : GatherDims.WF S100000x128 S640000x1 S640000x128 [1] [0] [] [0] [] 1 ![1, 128]
  dot_S100000x128_S128x128_S100000x128_1_0_0_1_n_n_wf : DotDims.WF S100000x128 S128x128 S100000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf

class Facts : Prop extends Facts₀ where

variable [Facts]
-- ==== Proof.Spec.lean ====
/-
  The mathematics of one relational graph-convolution layer, and of the three-layer network, as functions of the
  argument arrays over the extended reals.

  A layer takes the node features `x` ([100000, 128]), the four per-relation mean aggregates `m₀ … m₃` of the
  source features, a root matrix, four relation matrices and a bias row, and returns at node `p`, feature `q`

      bias q + ∑ₖ x(p,k)·root(k,q) + ∑ₖ m₀(p,k)·w₀(k,q) + … + ∑ₖ m₃(p,k)·w₃(k,q),

  clamped below at 0 on the two inner layers.  The mean aggregate of relation `r` is a chain of host operations
  (gather the source rows, mask by the edge type, segment-sum by destination, divide by the clamped count): it is the
  same chain in both programs, so it is carried here as ONE function `mean r x e t` and never opened.
-/
import proofs.«164069_j28346784153940_1_alg».proof.KernelIdeal
import Idealize.ShloMosaic.PureOps.Ideal
import Idealize.ShloMosaic.Lib.ValueIdx

noncomputable section

namespace Cert.Rgcn

open Idealize.ShloMosaic Idealize.ShloMosaic.ValueIdx Cert.KernelIdeal Cert.KernelIdeal.Facts₀

variable [Cert.KernelIdeal.Facts₀]

/-- The source-index column: row 0 of the edge list, a negative entry wrapped by the number of nodes, as an
    [E, 1] column. -/
def srcCol (e : IVec S2x640000 32) : IVec S640000x1 32 :=
  broadcastInDim S640000x1 ![0] bcast_S640000_S640000x1_0 (select (cmpi .slt (shapeCast _ (extractStridedSlice S1x640000 ![0, 0] e slices_S2x640000_S1x640000_0_0) shapeCasts_S1x640000_S640000) (broadcastInDim S640000 ![] bcast_S_S640000 (constantI S_ 32 0#32))) (addi (shapeCast _ (extractStridedSlice S1x640000 ![0, 0] e slices_S2x640000_S1x640000_0_0) shapeCasts_S1x640000_S640000) (broadcastInDim S640000 ![] bcast_S_S640000 (constantI S_ 32 100000#32))) (shapeCast _ (extractStridedSlice S1x640000 ![0, 0] e slices_S2x640000_S1x640000_0_0) shapeCasts_S1x640000_S640000))

/-- The destination-index column: row 1 of the edge list as an [E, 1] column. -/
def dstCol (e : IVec S2x640000 32) : IVec S640000x1 32 :=
  broadcastInDim S640000x1 ![0] bcast_S640000_S640000x1_0 (shapeCast _ (extractStridedSlice S1x640000 ![1, 0] e slices_S2x640000_S1x640000_1_0) shapeCasts_S1x640000_S640000)

/-- The 0/1 mask of the edges of relation `r`. -/
def mask (r : BitVec 32) (t : IVec S640000 32) : FVec Ideal S640000 .f32 :=
  uitofp .f32 (cmpi .eq t (broadcastInDim S640000 ![] bcast_S_S640000 (constantI S_ 32 r)))

/-- The mean over the edges of relation `r` into each node of the source features: the masked source rows summed
    by destination, divided by the number of such edges clamped below at 1. -/
def mean (r : BitVec 32) (x : FVec Ideal S100000x128 .f32) (e : IVec S2x640000 32) (t : IVec S640000 32) : FVec Ideal S100000x128 .f32 :=
  Host.divf (F := Ideal) (Host.scatterAdd (F := Ideal) scatter_S100000x128_S640000x1_S640000x128_1_0_0_1 (broadcastInDim S100000x128 ![] bcast_S_S100000x128 (constant (F := Ideal) S_ .f32 0x00000000#32)) (dstCol e) (mulf (Host.gather gather_S100000x128_S640000x1_S640000x128_1_0_n_n_0_1_1128 x (srcCol e)) (broadcastInDim S640000x128 ![0, 1] bcast_S640000x1_S640000x128_0_1 (broadcastInDim S640000x1 ![0] bcast_S640000_S640000x1_0 (mask r t))))) (broadcastInDim S100000x128 ![0, 1] bcast_S100000x1_S100000x128_0_1 (broadcastInDim S100000x1 ![0] bcast_S100000_S100000x1_0 (maximumf (Host.scatterAdd (F := Ideal) scatter_S100000_S640000x1_S640000_n_0_0_1 (broadcastInDim S100000 ![] bcast_S_S100000 (constant (F := Ideal) S_ .f32 0x00000000#32)) (dstCol e) (mask r t)) (broadcastInDim S100000 ![] bcast_S_S100000 (constant (F := Ideal) S_ .f32 0x3F800000#32)))))

/-- Row `p` of `x` against column `q` of `w`. -/
def mm (x : S100000x128.Idx → EReal) (w : S128x128.Idx → EReal) (p : Fin 100000) (q : Fin 128) : EReal :=
  ∑ k : Fin 128, x (ix2 p k) * w (ix2 k q)

/-- A layer before its clamp, at node `p` and feature `q`. -/
def pre (x m0 m1 m2 m3 : S100000x128.Idx → EReal) (root w0 w1 w2 w3 : S128x128.Idx → EReal) (b : Fin 128 → EReal)
    (p : Fin 100000) (q : Fin 128) : EReal :=
  b q + mm x root p q + mm m0 w0 p q + mm m1 w1 p q + mm m2 w2 p q + mm m3 w3 p q

/-- A layer: clamped below at 0 when `relu`. -/
def layer (relu : Bool) (x m0 m1 m2 m3 : S100000x128.Idx → EReal) (root w0 w1 w2 w3 : S128x128.Idx → EReal)
    (b : Fin 128 → EReal) : S100000x128.Idx → EReal := fun i =>
  if relu then max (pre x m0 m1 m2 m3 root w0 w1 w2 w3 b (i 0) (i 1)) 0 else pre x m0 m1 m2 m3 root w0 w1 w2 w3 b (i 0) (i 1)

/-- Relation `r`'s matrix of layer `l`, the root matrix of layer `l`, the bias row of layer `l`. -/
def relW (a3 : S3x4x128x128.Idx → EReal) (l : Fin 3) (r : Fin 4) : S128x128.Idx → EReal := fun i => a3 (ix4 l r (i 0) (i 1))
def rootW (a4 : S3x128x128.Idx → EReal) (l : Fin 3) : S128x128.Idx → EReal := fun i => a4 (ix3 l (i 0) (i 1))
def biasW (a5 : S3x128.Idx → EReal) (l : Fin 3) : Fin 128 → EReal := fun j => a5 (ix2 l j)

/-- Layer `l` of the network applied to node features `x`. -/
def step (relu : Bool) (l : Fin 3) (e : IVec S2x640000 32) (t : IVec S640000 32) (a3 : S3x4x128x128.Idx → EReal)
    (a4 : S3x128x128.Idx → EReal) (a5 : S3x128.Idx → EReal) (x : S100000x128.Idx → EReal) : S100000x128.Idx → EReal :=
  layer relu x (mean 0#32 x e t) (mean 1#32 x e t) (mean 2#32 x e t) (mean 3#32 x e t)
    (rootW a4 l) (relW a3 l 0) (relW a3 l 1) (relW a3 l 2) (relW a3 l 3) (biasW a5 l)

/-- The network: three layers, the first two clamped. -/
def net (e : IVec S2x640000 32) (t : IVec S640000 32) (x : S100000x128.Idx → EReal) (a3 : S3x4x128x128.Idx → EReal)
    (a4 : S3x128x128.Idx → EReal) (a5 : S3x128.Idx → EReal) : S100000x128.Idx → EReal :=
  step false 2 e t a3 a4 a5 (step true 1 e t a3 a4 a5 (step true 0 e t a3 a4 a5 x))

end Cert.Rgcn

end
-- ==== Proof.LibDense.lean ====
/-
  Dense layers read at an index, at the ideal values: a matrix product whose dimension numbers contract the left
  operand's columns with the right operand's rows (the kernel's product accumulated into a zero splat, and the
  host's product with no accumulator), and a vector laid along every row of a matrix.
-/
import Idealize.ShloMosaic.Lib.Pipeline.Value
import Idealize.ShloMosaic.Lib.ValueIdx
import Idealize.ShloMosaic.PureOps.Ideal.Laws

open scoped BigOperators

namespace Cert.Dense

open Idealize.ShloMosaic Idealize.ShloMosaic.ValueIdx

variable {m k n : Nat} {φ₁ φ₂ : FTy}

/-- The operand indices of a rows-by-columns contraction at output (a, b) and contraction coordinate c are
    (a, c) on the left … -/
theorem lhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c)
      = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- … and (c, b) on the right. -/
theorem rhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c)
      = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A kernel's matrix product into the zero splat, read at (a, b): the sum over c of A (a, c) · B (c, b). -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- The host's matrix product, read at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- A vector of n entries cast to one row and broadcast down m rows, read at (a, b), is the vector at b. -/
theorem rowBroadcast_apply {α : Type} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (b : Fin n) :
    broadcastTo ⟨2, ![m, n]⟩ (shapeCast ⟨2, ![1, n]⟩ x h1) hb (ix2 a b) = x (ix1 b) := by
  have e1 := broadcastTo_apply (shapeCast ⟨2, ![1, n]⟩ x h1) hb (ix2 a b) (ix2 (0 : Fin 1) b) (by
    intro ax
    match ax with
    | ⟨0, _⟩ => rfl
    | ⟨1, _⟩ =>
      show b.val = if n = 1 then 0 else b.val
      split
      · have := b.isLt; omega
      · rfl)
  have e2 := shapeCast_apply x h1 (ix2 (0 : Fin 1) b) (ix1 b) (by
    rw [Shape.rowMajor_val_two, Shape.rowMajor_val_one]; show b.val = 0 * n + b.val; omega)
  exact e1.trans e2

/-- The host's spelling: the vector broadcast to one row (along axis 1) and that row broadcast down m rows, read at
    (a, b), is the vector at b. -/
theorem hostRowBroadcast_apply {α : Type} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 x) (ix2 a b) = x (ix1 b) := by
  have e1 := broadcastInDim_apply ![0, 1] h2 (broadcastInDim ⟨2, ![1, n]⟩ ![1] h1 x) (ix2 a b) (ix2 (0 : Fin 1) b) (by
    intro ax
    match ax with
    | ⟨0, _⟩ => rfl
    | ⟨1, _⟩ =>
      show b.val = if n = 1 then 0 else b.val
      split
      · have := b.isLt; omega
      · rfl)
  have e2 := broadcastInDim_apply ![1] h1 x (ix2 (0 : Fin 1) b) (ix1 b) (by
    intro ax
    match ax with
    | ⟨0, _⟩ =>
      show b.val = if n = 1 then 0 else b.val
      split
      · have := b.isLt; omega
      · rfl)
  exact e1.trans e2

/-! ## A dense layer and a two-layer perceptron, one output entry from one input row -/

/-- Entry q of x · W + b, for one row x. -/
noncomputable def lin {k n : Nat} (x : Fin k → EReal) (W : FVec Ideal ⟨2, ![k, n]⟩ .f32) (b : FVec Ideal ⟨1, ![n]⟩ .f32)
    (q : Fin n) : EReal :=
  (∑ c : Fin k, x c * W (ix2 c q)) + b (ix1 q)

/-- Entry q of max(x · W₁ + b₁, 0) · W₂ + b₂, for one row x. -/
noncomputable def mlp {k h n : Nat} (x : Fin k → EReal) (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32) (q : Fin n) : EReal :=
  lin (fun j => max (lin x W₁ b₁ j) 0) W₂ b₂ q

/-- A kernel's dense layer on a block of rows, read at (p, q). -/
theorem dense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (p : Fin m) (q : Fin n) :
    addf (matmul (⟨[1], [0], [0], [1], [], [], w⟩ : DotDims ⟨2, ![m, k]⟩ ⟨2, ![k, n]⟩ ⟨2, ![m, n]⟩) prec A W
        (constant (F := Ideal) ⟨2, ![m, n]⟩ .f32 0x00000000#32))
      (broadcastTo ⟨2, ![m, n]⟩ (shapeCast ⟨2, ![1, n]⟩ b h1) hb) (ix2 p q)
      = lin (fun c => A (ix2 p c)) W b q := by
  rw [addf_apply, matmul_zero_apply, rowBroadcast_apply]
  rfl

/-- The host's dense layer on a whole array, read at (p, q). -/
theorem hostDense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    addf (Host.dotGeneral (⟨[1], [0], [0], [1], [], [], w⟩ : DotDims ⟨2, ![m, k]⟩ ⟨2, ![k, n]⟩ ⟨2, ![m, n]⟩) prec A W)
      (broadcastInDim ⟨2, ![m, n]⟩ ![0, 1] h2 (broadcastInDim ⟨2, ![1, n]⟩ ![1] h1 b)) (ix2 p q)
      = lin (fun c => A (ix2 p c)) W b q := by
  rw [addf_apply, dotGeneral_apply, hostRowBroadcast_apply]
  rfl

/-- A kernel's rectifier: the maximum with a splat of the zero word, at an index. -/
theorem relu_apply {s : Shape} (X : FVec Ideal s .f32) (i : s.Idx) :
    maximumf X (broadcast s (Scalar.ofBits (F := Ideal) .f32 0x00000000#32)) i = max (X i) 0 := by
  rw [maximumf_apply, broadcast_apply]
  show max (X i) (Ideal.ofBits .f32 0x00000000#32) = _
  rw [Ideal.ofBits_zero_f32]

/-- The host's rectifier: the maximum with the broadcast of the zero constant, at an index. -/
theorem hostRelu_apply {s : Shape} (X : FVec Ideal s .f32)
    (h : (⟨0, ![]⟩ : Shape).BroadcastsInDim s (![] : Fin 0 → Fin s.rank)) (i : s.Idx) :
    maximumf X (broadcastInDim s ![] h (constant (F := Ideal) ⟨0, ![]⟩ .f32 0x00000000#32)) i = max (X i) 0 := by
  rw [maximumf_apply]
  show max (X i) (Ideal.ofBits .f32 0x00000000#32) = _
  rw [Ideal.ofBits_zero_f32]

/-- A kernel's two-layer perceptron on a block of rows, read at (p, q). -/
theorem mlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).ShapeCasts ⟨2, ![1, h]⟩) (hb₁ : (⟨2, ![1, h]⟩ : Shape).Broadcasts ⟨2, ![m, h]⟩)
    (hs₂ : (⟨1, ![n]⟩ : Shape).ShapeCasts ⟨2, ![1, n]⟩) (hb₂ : (⟨2, ![1, n]⟩ : Shape).Broadcasts ⟨2, ![m, n]⟩)
    (p : Fin m) (q : Fin n) :
    addf (matmul (⟨[1], [0], [0], [1], [], [], w₂⟩ : DotDims ⟨2, ![m, h]⟩ ⟨2, ![h, n]⟩ ⟨2, ![m, n]⟩) prec₂
        (maximumf
          (addf (matmul (⟨[1], [0], [0], [1], [], [], w₁⟩ : DotDims ⟨2, ![m, k]⟩ ⟨2, ![k, h]⟩ ⟨2, ![m, h]⟩) prec₁ A W₁
              (constant (F := Ideal) ⟨2, ![m, h]⟩ .f32 0x00000000#32))
            (broadcastTo ⟨2, ![m, h]⟩ (shapeCast ⟨2, ![1, h]⟩ b₁ hs₁) hb₁))
          (broadcast ⟨2, ![m, h]⟩ (Scalar.ofBits (F := Ideal) .f32 0x00000000#32)))
        W₂ (constant (F := Ideal) ⟨2, ![m, n]⟩ .f32 0x00000000#32))
      (broadcastTo ⟨2, ![m, n]⟩ (shapeCast ⟨2, ![1, n]⟩ b₂ hs₂) hb₂) (ix2 p q)
      = mlp (fun c => A (ix2 p c)) W₁ b₁ W₂ b₂ q := by
  rw [dense_apply]
  unfold mlp
  congr 1
  funext j
  rw [relu_apply, dense_apply]

/-- The host's two-layer perceptron on a whole array, read at (p, q). -/
theorem hostMlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).BroadcastsInDim ⟨2, ![1, h]⟩ ![1])
    (hb₁ : (⟨2, ![1, h]⟩ : Shape).BroadcastsInDim ⟨2, ![m, h]⟩ ![0, 1])
    (hs₂ : (⟨1, ![n]⟩ : Shape).BroadcastsInDim ⟨2, ![1, n]⟩ ![1])
    (hb₂ : (⟨2, ![1, n]⟩ : Shape).BroadcastsInDim ⟨2, ![m, n]⟩ ![0, 1])
    (hz : (⟨0, ![]⟩ : Shape).BroadcastsInDim ⟨2, ![m, h]⟩ (![] : Fin 0 → Fin 2))
    (p : Fin m) (q : Fin n) :
    addf (Host.dotGeneral (⟨[1], [0], [0], [1], [], [], w₂⟩ : DotDims ⟨2, ![m, h]⟩ ⟨2, ![h, n]⟩ ⟨2, ![m, n]⟩) prec₂
        (maximumf
          (addf (Host.dotGeneral (⟨[1], [0], [0], [1], [], [], w₁⟩ : DotDims ⟨2, ![m, k]⟩ ⟨2, ![k, h]⟩ ⟨2, ![m, h]⟩) prec₁ A W₁)
            (broadcastInDim ⟨2, ![m, h]⟩ ![0, 1] hb₁ (broadcastInDim ⟨2, ![1, h]⟩ ![1] hs₁ b₁)))
          (broadcastInDim ⟨2, ![m, h]⟩ ![] hz (constant (F := Ideal) ⟨0, ![]⟩ .f32 0x00000000#32)))
        W₂)
      (broadcastInDim ⟨2, ![m, n]⟩ ![0, 1] hb₂ (broadcastInDim ⟨2, ![1, n]⟩ ![1] hs₂ b₂)) (ix2 p q)
      = mlp (fun c => A (ix2 p c)) W₁ b₁ W₂ b₂ q := by
  rw [hostDense_apply]
  unfold mlp
  congr 1
  funext j
  rw [hostRelu_apply, hostDense_apply]

end Cert.Dense
-- ==== Proof.Region0.lean ====
/-
  Region 0 of the kernel's program: one launch of the fused layer over 25 blocks of 4000 nodes.  At grid point `t`
  the body reads rows 4000·t … 4000·t + 3999 of the node features and of the four mean aggregates, the five
  128 × 128 matrices and the bias row whole, and writes the same rows of the output: at row `p` of the block and
  feature `q`,

      max (bias q + ∑ₖ x(p,k)·root(k,q) + ∑ₖ m₀(p,k)·w₀(k,q) + … + ∑ₖ m₃(p,k)·w₃(k,q)) 0

  (a conversion to bfloat16 on the way into a product is the identity on the extended reals).  The 25 blocks tile
  the array, so after the launch the output array is the layer function of the arrays the launch found — stated for
  ANY contents `V` at the launch, so that nothing here depends on what ran before.
-/
import proofs.«164069_j28346784153940_1_alg».proof.Proof.Spec
import proofs.«164069_j28346784153940_1_alg».proof.Proof.LibDense
import proofs.«164069_j28346784153940_1_alg».proof.Proof.Gen.KernelIdeal.Frame
import Idealize.ShloMosaic.Lib.Pipeline.Value
import Idealize.ShloMosaic.Lib.ValueLayout

set_option maxRecDepth 16384

noncomputable section

namespace Cert.Rgcn.Region0

open Idealize.ShloMosaic Idealize.ShloMosaic.ValueIdx Idealize.ShloMosaic.TcCoe Idealize.SL.Sem
open Cert.KernelIdeal Cert.KernelIdeal.Gen Cert.Rgcn
open Idealize.ShloMosaic.Pipeline (Dat)

theorem hz : (![0, 0] : Fin 2 → Nat) = fun _ => 0 := funext fun a => by fin_cases a <;> rfl

/-- A product of a block of rows with a matrix, into the zero splat, at (p, q). -/
theorem prod_apply (A : FVec Ideal S4000x128 .f32) (B : FVec Ideal S128x128 .f32) (h1 : FTy.bits .bf16 < FTy.bits .f32)
    (p : Fin 4000) (q : Fin 128) :
    matmul dot_S4000x128_S128x128_S4000x128_1_0_0_1_n_n none (truncf .bf16 A h1) (truncf .bf16 B h1)
        (constant (F := Ideal) S4000x128 .f32 0x00000000#32) (ix2 p q)
      = ∑ k : Fin 128, A (ix2 p k) * B (ix2 k q) :=
  Cert.Dense.matmul_zero_apply dot_S4000x128_S128x128_S4000x128_1_0_0_1_n_n.wf none
    (truncf .bf16 A h1 : FVec Ideal S4000x128 .bf16) (truncf .bf16 B h1 : FVec Ideal S128x128 .bf16) p q

/-- The block the body stores, at row `p` of the block and feature `q`, from the blocks it loaded. -/
theorem out_apply (x0 x1 x2 x3 x4 : Vec Ideal S4000x128 .f32) (x5 x6 x7 x8 x9 : Vec Ideal S128x128 .f32)
    (x10 : Vec Ideal S1x128 .f32) (p : Fin 4000) (q : Fin 128) :
    out0_11 (F := Ideal) x0 x1 x2 x3 x4 x5 x6 x7 x8 x9 x10 (ix2 p q)
      = max (x10 (ix2 (0 : Fin 1) q) + (∑ k : Fin 128, x0 (ix2 p k) * x5 (ix2 k q)) + (∑ k : Fin 128, x1 (ix2 p k) * x6 (ix2 k q))
          + (∑ k : Fin 128, x2 (ix2 p k) * x7 (ix2 k q)) + (∑ k : Fin 128, x3 (ix2 p k) * x8 (ix2 k q))
          + (∑ k : Fin 128, x4 (ix2 p k) * x9 (ix2 k q))) 0 := by
  unfold out0_11
  rw [View.canon_unit_zero hz]
  simp only [View.ld_unit_zero (S := S4000x128) hz, View.ld_unit_zero (S := S128x128) hz, View.ld_unit_zero (S := S1x128) hz]
  unfold k0_pay1 k0_pay2 k0_pay3 k0_pay4 k0_pay5 k0_pay6 k0_pay7
  simp only [shapeCast_self]
  refine (Cert.Dense.relu_apply _ (ix2 p q)).trans ?_
  refine congrArg (max · 0) ?_
  simp only [addf_apply, prod_apply]
  refine congrArg (· + _ + _ + _ + _ + _) ?_
  exact broadcastTo_1b_ab_apply x10 _ p q

/-! ## From blocks to the array -/

section Array

variable (V : (c : Dev nD) → (b : Ref sig .tc) → Buf (Elt Ideal) ((c : Thread nD τ).loc b))

/-- The printed index maps over the 25 grid points: the row windows sit at block row `t`, column block 0; the
    matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Row `p` of block `t` is row 4000·t + p of the array. -/
def row (t : Fin cfg0.N) (p : Fin 4000) : Fin 100000 :=
  ⟨t.val * 4000 + p.val, by have h : t.val < 25 := t.isLt; have := p.isLt; omega⟩

theorem blk0_apply (c : Dev nD) (t : Fin cfg0.N) (p : Fin 4000) (k : Fin 128) :
    iblk0 V c 0 t (ix2 p k) = (V c main_arg2 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_arg2 : S100000x128.Idx → EReal) (((cfg0.win 0).blk t).view.emb (ix2 p k)) = _
  refine congrArg (V c main_arg2 : S100000x128.Idx → EReal) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

theorem blk1_apply (c : Dev nD) (t : Fin cfg0.N) (p : Fin 4000) (k : Fin 128) :
    iblk0 V c 1 t (ix2 p k) = (V c main_v27 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v27 : S100000x128.Idx → EReal) (((cfg0.win 1).blk t).view.emb (ix2 p k)) = _
  refine congrArg (V c main_v27 : S100000x128.Idx → EReal) (funext fun a => Fin.ext ?_)
  match a with
  | ⟨0, _⟩ => show win0_1.index t (0 : Fin 2) * 4000 + 1 * p.val = t.val * 4000 + p.val; rw [e2]; omega
  | ⟨1, _⟩ => show win0_1.index t (1 : Fin 2) * 128 + 1 * k.val = k.val; rw [e3]; omega

theorem blk2_apply (c : Dev nD) (t : Fin cfg0.N) (p : Fin 4000) (k : Fin 128) :
    iblk0 V c 2 t (ix2 p k) = (V c main_v44 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v44 : S100000x128.Idx → EReal) (((cfg0.win 2).blk t).view.emb (ix2 p k)) = _
  refine congrArg (V c main_v44 : S100000x128.Idx → EReal) (funext fun a => Fin.ext ?_)
  match a with
  | ⟨0, _⟩ => show win0_2.index t (0 : Fin 2) * 4000 + 1 * p.val = t.val * 4000 + p.val; rw [e4]; omega
  | ⟨1, _⟩ => show win0_2.index t (1 : Fin 2) * 128 + 1 * k.val = k.val; rw [e5]; omega

theorem blk3_apply (c : Dev nD) (t : Fin cfg0.N) (p : Fin 4000) (k : Fin 128) :
    iblk0 V c 3 t (ix2 p k) = (V c main_v61 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v61 : S100000x128.Idx → EReal) (((cfg0.win 3).blk t).view.emb (ix2 p k)) = _
  refine congrArg (V c main_v61 : S100000x128.Idx → EReal) (funext fun a => Fin.ext ?_)
  match a with
  | ⟨0, _⟩ => show win0_3.index t (0 : Fin 2) * 4000 + 1 * p.val = t.val * 4000 + p.val; rw [e6]; omega
  | ⟨1, _⟩ => show win0_3.index t (1 : Fin 2) * 128 + 1 * k.val = k.val; rw [e7]; omega

theorem blk4_apply (c : Dev nD) (t : Fin cfg0.N) (p : Fin 4000) (k : Fin 128) :
    iblk0 V c 4 t (ix2 p k) = (V c main_v78 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v78 : S100000x128.Idx → EReal) (((cfg0.win 4).blk t).view.emb (ix2 p k)) = _
  refine congrArg (V c main_v78 : S100000x128.Idx → EReal) (funext fun a => Fin.ext ?_)
  match a with
  | ⟨0, _⟩ => show win0_4.index t (0 : Fin 2) * 4000 + 1 * p.val = t.val * 4000 + p.val; rw [e8]; omega
  | ⟨1, _⟩ => show win0_4.index t (1 : Fin 2) * 128 + 1 * k.val = k.val; rw [e9]; omega

theorem blk5_apply (c : Dev nD) (t : Fin cfg0.N) (k q : Fin 128) :
    iblk0 V c 5 t (ix2 k q) = (V c main_v88 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v88 : S128x128.Idx → EReal) (((cfg0.win 5).blk t).view.emb (ix2 k q)) = _
  refine congrArg (V c main_v88 : S128x128.Idx → EReal) (funext fun a => Fin.ext ?_)
  match a with
  | ⟨0, _⟩ => show win0_5.index t (0 : Fin 2) * 128 + 1 * k.val = k.val; rw [e10]; omega
  | ⟨1, _⟩ => show win0_5.index t (1 : Fin 2) * 128 + 1 * q.val = q.val; rw [e11]; omega

theorem blk6_apply (c : Dev nD) (t : Fin cfg0.N) (k q : Fin 128) :
    iblk0 V c 6 t (ix2 k q) = (V c main_v80 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v80 : S128x128.Idx → EReal) (((cfg0.win 6).blk t).view.emb (ix2 k q)) = _
  refine congrArg (V c main_v80 : S128x128.Idx → EReal) (funext fun a => Fin.ext ?_)
  match a with
  | ⟨0, _⟩ => show win0_6.index t (0 : Fin 2) * 128 + 1 * k.val = k.val; rw [e12]; omega
  | ⟨1, _⟩ => show win0_6.index t (1 : Fin 2) * 128 + 1 * q.val = q.val; rw [e13]; omega

theorem blk7_apply (c : Dev nD) (t : Fin cfg0.N) (k q : Fin 128) :
    iblk0 V c 7 t (ix2 k q) = (V c main_v82 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v82 : S128x128.Idx → EReal) (((cfg0.win 7).blk t).view.emb (ix2 k q)) = _
  refine congrArg (V c main_v82 : S128x128.Idx → EReal) (funext fun a => Fin.ext ?_)
  match a with
  | ⟨0, _⟩ => show win0_7.index t (0 : Fin 2) * 128 + 1 * k.val = k.val; rw [e14]; omega
  | ⟨1, _⟩ => show win0_7.index t (1 : Fin 2) * 128 + 1 * q.val = q.val; rw [e15]; omega

theorem blk8_apply (c : Dev nD) (t : Fin cfg0.N) (k q : Fin 128) :
    iblk0 V c 8 t (ix2 k q) = (V c main_v84 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v84 : S128x128.Idx → EReal) (((cfg0.win 8).blk t).view.emb (ix2 k q)) = _
  refine congrArg (V c main_v84 : S128x128.Idx → EReal) (funext fun a => Fin.ext ?_)
  match a with
  | ⟨0, _⟩ => show win0_8.index t (0 : Fin 2) * 128 + 1 * k.val = k.val; rw [e16]; omega
  | ⟨1, _⟩ => show win0_8.index t (1 : Fin 2) * 128 + 1 * q.val = q.val; rw [e17]; omega

theorem blk9_apply (c : Dev nD) (t : Fin cfg0.N) (k q : Fin 128) :
    iblk0 V c 9 t (ix2 k q) = (V c main_v86 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v86 : S128x128.Idx → EReal) (((cfg0.win 9).blk t).view.emb (ix2 k q)) = _
  refine congrArg (V c main_v86 : S128x128.Idx → EReal) (funext fun a => Fin.ext ?_)
  match a with
  | ⟨0, _⟩ => show win0_9.index t (0 : Fin 2) * 128 + 1 * k.val = k.val; rw [e18]; omega
  | ⟨1, _⟩ => show win0_9.index t (1 : Fin 2) * 128 + 1 * q.val = q.val; rw [e19]; omega

theorem blk10_apply (c : Dev nD) (t : Fin cfg0.N) (q : Fin 128) :
    iblk0 V c 10 t (ix2 (0 : Fin 1) q) = (V c main_v91 : S1x128.Idx → EReal) (ix2 (0 : Fin 1) q) := by
  obtain ⟨e0, e1, e2, e3, e4, e5, e6, e7, e8, e9, e10, e11, e12, e13, e14, e15, e16, e17, e18, e19, e20, e21, e22, e23⟩ := idx_facts t
  show (V c main_v91 : S1x128.Idx → EReal) (((cfg0.win 10).blk t).view.emb (ix2 (0 : Fin 1) q)) = _
  refine congrArg (V c main_v91 : S1x128.Idx → EReal) (funext fun a => Fin.ext ?_)
  match a with
  | ⟨0, _⟩ => show win0_10.index t (0 : Fin 2) * 1 + 1 * 0 = 0; rw [e20]
  | ⟨1, _⟩ => show win0_10.index t (1 : Fin 2) * 128 + 1 * q.val = q.val; rw [e21]; omega

/-- The layer function of the arrays the launch found. -/
abbrev G (c : Dev nD) : S100000x128.Idx → EReal :=
  layer true (V c main_arg2) (V c main_v27) (V c main_v44) (V c main_v61) (V c main_v78)
    (V c main_v88) (V c main_v80) (V c main_v82) (V c main_v84) (V c main_v86)
    (fun j => (V c main_v91 : S1x128.Idx → EReal) (ix2 (0 : Fin 1) j))

/-- What point `t` writes back is block `t` of the layer function. -/
theorem flushed_eq (c : Dev nD) (t : Fin cfg0.N) :
    (dat0 V c).flushed 11 t = ((cfg0.win 11).blk t).view.read (Elt Ideal) (G V c) := by
  obtain ⟨e0, e1, e2, e3, e4, e5, e6, e7, e8, e9, e10, e11, e12, e13, e14, e15, e16, e17, e18, e19, e20, e21, e22, e23⟩ := idx_facts t
  show (cfg0.win 11).cut (grid0.coords t) ((dat0 V c).after 11 t) = _
  rw [after0_11]
  funext j
  obtain ⟨p, q, rfl⟩ : ∃ (p : Fin 4000) (q : Fin 128), j = ix2 p q := ⟨j 0, j 1, eq_ix2 j⟩
  refine (out_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  have hemb : ((cfg0.win 11).blk t).view.emb (ix2 p q) = (ix2 (row t p) q : S100000x128.Idx) := by
    funext a; apply Fin.ext
    match a with
    | ⟨0, _⟩ => show win0_11.index t (0 : Fin 2) * 4000 + 1 * p.val = t.val * 4000 + p.val; rw [e22]; omega
    | ⟨1, _⟩ => show win0_11.index t (1 : Fin 2) * 128 + 1 * q.val = q.val; rw [e23]; omega
  show _ = G V c (((cfg0.win 11).blk t).view.emb (ix2 p q))
  rw [hemb]
  simp only [blk0_apply, blk1_apply, blk2_apply, blk3_apply, blk4_apply, blk5_apply, blk6_apply, blk7_apply, blk8_apply,
    blk9_apply, blk10_apply]
  rfl

/-- An index of the array is in point `t`'s block iff each coordinate is in the block's range on its axis. -/
theorem mem_blk (t : Fin cfg0.N) (i : S100000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v92).slice (win0_11.rect t)).set ↔ _
  rw [View.set_slice_whole, Rect.mem_set_unit]
  exact Iff.rfl

/-- The 25 blocks tile the array: row `r` lies in block `r / 4000`. -/
theorem cover (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨e0, e1, e2, e3, e4, e5, e6, e7, e8, e9, e10, e11, e12, e13, e14, e15, e16, e17, e18, e19, e20, e21, e22, e23⟩ := idx_facts t
  have ht : t.val = (i 0).val / 4000 := rfl
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; rw [e22, ht]; omega
  | ⟨1, _⟩ => show win0_11.index t (1 : Fin 2) * 128 ≤ (i 1).val ∧ (i 1).val < win0_11.index t (1 : Fin 2) * 128 + 128; rw [e23]; omega

/-- After the launch the output array is the layer function of the arrays the launch found. -/
theorem value (c : Dev nD) : (dat0 V c).arrAt 11 cfg0.N = G V c :=
  (dat0 V c).arrAt_eq_of_cover 11 (G V c) (fun t _ => flushed_eq V c t) (cover)

end Array

end Cert.Rgcn.Region0

end
-- ==== Proof.Region1.lean ====
/-
  Region 1 of the kernel's program: one launch of the fused layer over 25 blocks of 4000 nodes.  At grid point `t`
  the body reads rows 4000·t … 4000·t + 3999 of the node features and of the four mean aggregates, the five
  128 × 128 matrices and the bias row whole, and writes the same rows of the output: at row `p` of the block and
  feature `q`,

      max (bias q + ∑ₖ x(p,k)·root(k,q) + ∑ₖ m₀(p,k)·w₀(k,q) + … + ∑ₖ m₃(p,k)·w₃(k,q)) 0

  (a conversion to bfloat16 on the way into a product is the identity on the extended reals).  The 25 blocks tile
  the array, so after the launch the output array is the layer function of the arrays the launch found — stated for
  ANY contents `V` at the launch, so that nothing here depends on what ran before.
-/
import proofs.«164069_j28346784153940_1_alg».proof.Proof.Spec
import proofs.«164069_j28346784153940_1_alg».proof.Proof.LibDense
import proofs.«164069_j28346784153940_1_alg».proof.Proof.Gen.KernelIdeal.Frame
import Idealize.ShloMosaic.Lib.Pipeline.Value
import Idealize.ShloMosaic.Lib.ValueLayout

set_option maxRecDepth 16384

noncomputable section

namespace Cert.Rgcn.Region1

open Idealize.ShloMosaic Idealize.ShloMosaic.ValueIdx Idealize.ShloMosaic.TcCoe Idealize.SL.Sem
open Cert.KernelIdeal Cert.KernelIdeal.Gen Cert.Rgcn
open Idealize.ShloMosaic.Pipeline (Dat)

theorem hz : (![0, 0] : Fin 2 → Nat) = fun _ => 0 := funext fun a => by fin_cases a <;> rfl

/-- A product of a block of rows with a matrix, into the zero splat, at (p, q). -/
theorem prod_apply (A : FVec Ideal S4000x128 .f32) (B : FVec Ideal S128x128 .f32) (h1 : FTy.bits .bf16 < FTy.bits .f32)
    (p : Fin 4000) (q : Fin 128) :
    matmul dot_S4000x128_S128x128_S4000x128_1_0_0_1_n_n none (truncf .bf16 A h1) (truncf .bf16 B h1)
        (constant (F := Ideal) S4000x128 .f32 0x00000000#32) (ix2 p q)
      = ∑ k : Fin 128, A (ix2 p k) * B (ix2 k q) :=
  Cert.Dense.matmul_zero_apply dot_S4000x128_S128x128_S4000x128_1_0_0_1_n_n.wf none
    (truncf .bf16 A h1 : FVec Ideal S4000x128 .bf16) (truncf .bf16 B h1 : FVec Ideal S128x128 .bf16) p q

/-- The block the body stores, at row `p` of the block and feature `q`, from the blocks it loaded. -/
theorem out_apply (x0 x1 x2 x3 x4 : Vec Ideal S4000x128 .f32) (x5 x6 x7 x8 x9 : Vec Ideal S128x128 .f32)
    (x10 : Vec Ideal S1x128 .f32) (p : Fin 4000) (q : Fin 128) :
    out1_11 (F := Ideal) x0 x1 x2 x3 x4 x5 x6 x7 x8 x9 x10 (ix2 p q)
      = max (x10 (ix2 (0 : Fin 1) q) + (∑ k : Fin 128, x0 (ix2 p k) * x5 (ix2 k q)) + (∑ k : Fin 128, x1 (ix2 p k) * x6 (ix2 k q))
          + (∑ k : Fin 128, x2 (ix2 p k) * x7 (ix2 k q)) + (∑ k : Fin 128, x3 (ix2 p k) * x8 (ix2 k q))
          + (∑ k : Fin 128, x4 (ix2 p k) * x9 (ix2 k q))) 0 := by
  unfold out1_11
  rw [View.canon_unit_zero hz]
  simp only [View.ld_unit_zero (S := S4000x128) hz, View.ld_unit_zero (S := S128x128) hz, View.ld_unit_zero (S := S1x128) hz]
  unfold k1_pay1 k1_pay2 k1_pay3 k1_pay4 k1_pay5 k1_pay6 k1_pay7 k1_pay8
  simp only [shapeCast_self]
  refine (Cert.Dense.relu_apply _ (ix2 p q)).trans ?_
  refine congrArg (max · 0) ?_
  simp only [addf_apply, prod_apply]
  refine congrArg (· + _ + _ + _ + _ + _) ?_
  exact broadcastTo_1b_ab_apply x10 _ p q

/-! ## From blocks to the array -/

section Array

variable (V : (c : Dev nD) → (b : Ref sig .tc) → Buf (Elt Ideal) ((c : Thread nD τ).loc b))

/-- The printed index maps over the 25 grid points: the row windows sit at block row `t`, column block 0; the
    matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-- Row `p` of block `t` is row 4000·t + p of the array. -/
def row (t : Fin cfg1.N) (p : Fin 4000) : Fin 100000 :=
  ⟨t.val * 4000 + p.val, by have h : t.val < 25 := t.isLt; have := p.isLt; omega⟩

theorem blk0_apply (c : Dev nD) (t : Fin cfg1.N) (p : Fin 4000) (k : Fin 128) :
    iblk1 V c 0 t (ix2 p k) = (V c main_v92 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v92 : S100000x128.Idx → EReal) (((cfg1.win 0).blk t).view.emb (ix2 p k)) = _
  refine congrArg (V c main_v92 : S100000x128.Idx → EReal) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

theorem blk1_apply (c : Dev nD) (t : Fin cfg1.N) (p : Fin 4000) (k : Fin 128) :
    iblk1 V c 1 t (ix2 p k) = (V c main_v120 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v120 : S100000x128.Idx → EReal) (((cfg1.win 1).blk t).view.emb (ix2 p k)) = _
  refine congrArg (V c main_v120 : S100000x128.Idx → EReal) (funext fun a => Fin.ext ?_)
  match a with
  | ⟨0, _⟩ => show win1_1.index t (0 : Fin 2) * 4000 + 1 * p.val = t.val * 4000 + p.val; rw [e2]; omega
  | ⟨1, _⟩ => show win1_1.index t (1 : Fin 2) * 128 + 1 * k.val = k.val; rw [e3]; omega

theorem blk2_apply (c : Dev nD) (t : Fin cfg1.N) (p : Fin 4000) (k : Fin 128) :
    iblk1 V c 2 t (ix2 p k) = (V c main_v137 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v137 : S100000x128.Idx → EReal) (((cfg1.win 2).blk t).view.emb (ix2 p k)) = _
  refine congrArg (V c main_v137 : S100000x128.Idx → EReal) (funext fun a => Fin.ext ?_)
  match a with
  | ⟨0, _⟩ => show win1_2.index t (0 : Fin 2) * 4000 + 1 * p.val = t.val * 4000 + p.val; rw [e4]; omega
  | ⟨1, _⟩ => show win1_2.index t (1 : Fin 2) * 128 + 1 * k.val = k.val; rw [e5]; omega

theorem blk3_apply (c : Dev nD) (t : Fin cfg1.N) (p : Fin 4000) (k : Fin 128) :
    iblk1 V c 3 t (ix2 p k) = (V c main_v154 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v154 : S100000x128.Idx → EReal) (((cfg1.win 3).blk t).view.emb (ix2 p k)) = _
  refine congrArg (V c main_v154 : S100000x128.Idx → EReal) (funext fun a => Fin.ext ?_)
  match a with
  | ⟨0, _⟩ => show win1_3.index t (0 : Fin 2) * 4000 + 1 * p.val = t.val * 4000 + p.val; rw [e6]; omega
  | ⟨1, _⟩ => show win1_3.index t (1 : Fin 2) * 128 + 1 * k.val = k.val; rw [e7]; omega

theorem blk4_apply (c : Dev nD) (t : Fin cfg1.N) (p : Fin 4000) (k : Fin 128) :
    iblk1 V c 4 t (ix2 p k) = (V c main_v171 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v171 : S100000x128.Idx → EReal) (((cfg1.win 4).blk t).view.emb (ix2 p k)) = _
  refine congrArg (V c main_v171 : S100000x128.Idx → EReal) (funext fun a => Fin.ext ?_)
  match a with
  | ⟨0, _⟩ => show win1_4.index t (0 : Fin 2) * 4000 + 1 * p.val = t.val * 4000 + p.val; rw [e8]; omega
  | ⟨1, _⟩ => show win1_4.index t (1 : Fin 2) * 128 + 1 * k.val = k.val; rw [e9]; omega

theorem blk5_apply (c : Dev nD) (t : Fin cfg1.N) (k q : Fin 128) :
    iblk1 V c 5 t (ix2 k q) = (V c main_v181 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v181 : S128x128.Idx → EReal) (((cfg1.win 5).blk t).view.emb (ix2 k q)) = _
  refine congrArg (V c main_v181 : S128x128.Idx → EReal) (funext fun a => Fin.ext ?_)
  match a with
  | ⟨0, _⟩ => show win1_5.index t (0 : Fin 2) * 128 + 1 * k.val = k.val; rw [e10]; omega
  | ⟨1, _⟩ => show win1_5.index t (1 : Fin 2) * 128 + 1 * q.val = q.val; rw [e11]; omega

theorem blk6_apply (c : Dev nD) (t : Fin cfg1.N) (k q : Fin 128) :
    iblk1 V c 6 t (ix2 k q) = (V c main_v173 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v173 : S128x128.Idx → EReal) (((cfg1.win 6).blk t).view.emb (ix2 k q)) = _
  refine congrArg (V c main_v173 : S128x128.Idx → EReal) (funext fun a => Fin.ext ?_)
  match a with
  | ⟨0, _⟩ => show win1_6.index t (0 : Fin 2) * 128 + 1 * k.val = k.val; rw [e12]; omega
  | ⟨1, _⟩ => show win1_6.index t (1 : Fin 2) * 128 + 1 * q.val = q.val; rw [e13]; omega

theorem blk7_apply (c : Dev nD) (t : Fin cfg1.N) (k q : Fin 128) :
    iblk1 V c 7 t (ix2 k q) = (V c main_v175 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v175 : S128x128.Idx → EReal) (((cfg1.win 7).blk t).view.emb (ix2 k q)) = _
  refine congrArg (V c main_v175 : S128x128.Idx → EReal) (funext fun a => Fin.ext ?_)
  match a with
  | ⟨0, _⟩ => show win1_7.index t (0 : Fin 2) * 128 + 1 * k.val = k.val; rw [e14]; omega
  | ⟨1, _⟩ => show win1_7.index t (1 : Fin 2) * 128 + 1 * q.val = q.val; rw [e15]; omega

theorem blk8_apply (c : Dev nD) (t : Fin cfg1.N) (k q : Fin 128) :
    iblk1 V c 8 t (ix2 k q) = (V c main_v177 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v177 : S128x128.Idx → EReal) (((cfg1.win 8).blk t).view.emb (ix2 k q)) = _
  refine congrArg (V c main_v177 : S128x128.Idx → EReal) (funext fun a => Fin.ext ?_)
  match a with
  | ⟨0, _⟩ => show win1_8.index t (0 : Fin 2) * 128 + 1 * k.val = k.val; rw [e16]; omega
  | ⟨1, _⟩ => show win1_8.index t (1 : Fin 2) * 128 + 1 * q.val = q.val; rw [e17]; omega

theorem blk9_apply (c : Dev nD) (t : Fin cfg1.N) (k q : Fin 128) :
    iblk1 V c 9 t (ix2 k q) = (V c main_v179 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v179 : S128x128.Idx → EReal) (((cfg1.win 9).blk t).view.emb (ix2 k q)) = _
  refine congrArg (V c main_v179 : S128x128.Idx → EReal) (funext fun a => Fin.ext ?_)
  match a with
  | ⟨0, _⟩ => show win1_9.index t (0 : Fin 2) * 128 + 1 * k.val = k.val; rw [e18]; omega
  | ⟨1, _⟩ => show win1_9.index t (1 : Fin 2) * 128 + 1 * q.val = q.val; rw [e19]; omega

theorem blk10_apply (c : Dev nD) (t : Fin cfg1.N) (q : Fin 128) :
    iblk1 V c 10 t (ix2 (0 : Fin 1) q) = (V c main_v184 : S1x128.Idx → EReal) (ix2 (0 : Fin 1) q) := by
  obtain ⟨e0, e1, e2, e3, e4, e5, e6, e7, e8, e9, e10, e11, e12, e13, e14, e15, e16, e17, e18, e19, e20, e21, e22, e23⟩ := idx_facts t
  show (V c main_v184 : S1x128.Idx → EReal) (((cfg1.win 10).blk t).view.emb (ix2 (0 : Fin 1) q)) = _
  refine congrArg (V c main_v184 : S1x128.Idx → EReal) (funext fun a => Fin.ext ?_)
  match a with
  | ⟨0, _⟩ => show win1_10.index t (0 : Fin 2) * 1 + 1 * 0 = 0; rw [e20]
  | ⟨1, _⟩ => show win1_10.index t (1 : Fin 2) * 128 + 1 * q.val = q.val; rw [e21]; omega

/-- The layer function of the arrays the launch found. -/
abbrev G (c : Dev nD) : S100000x128.Idx → EReal :=
  layer true (V c main_v92) (V c main_v120) (V c main_v137) (V c main_v154) (V c main_v171)
    (V c main_v181) (V c main_v173) (V c main_v175) (V c main_v177) (V c main_v179)
    (fun j => (V c main_v184 : S1x128.Idx → EReal) (ix2 (0 : Fin 1) j))

/-- What point `t` writes back is block `t` of the layer function. -/
theorem flushed_eq (c : Dev nD) (t : Fin cfg1.N) :
    (dat1 V c).flushed 11 t = ((cfg1.win 11).blk t).view.read (Elt Ideal) (G V c) := by
  obtain ⟨e0, e1, e2, e3, e4, e5, e6, e7, e8, e9, e10, e11, e12, e13, e14, e15, e16, e17, e18, e19, e20, e21, e22, e23⟩ := idx_facts t
  show (cfg1.win 11).cut (grid1.coords t) ((dat1 V c).after 11 t) = _
  rw [after1_11]
  funext j
  obtain ⟨p, q, rfl⟩ : ∃ (p : Fin 4000) (q : Fin 128), j = ix2 p q := ⟨j 0, j 1, eq_ix2 j⟩
  refine (out_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p q).trans ?_
  have hemb : ((cfg1.win 11).blk t).view.emb (ix2 p q) = (ix2 (row t p) q : S100000x128.Idx) := by
    funext a; apply Fin.ext
    match a with
    | ⟨0, _⟩ => show win1_11.index t (0 : Fin 2) * 4000 + 1 * p.val = t.val * 4000 + p.val; rw [e22]; omega
    | ⟨1, _⟩ => show win1_11.index t (1 : Fin 2) * 128 + 1 * q.val = q.val; rw [e23]; omega
  show _ = G V c (((cfg1.win 11).blk t).view.emb (ix2 p q))
  rw [hemb]
  simp only [blk0_apply, blk1_apply, blk2_apply, blk3_apply, blk4_apply, blk5_apply, blk6_apply, blk7_apply, blk8_apply,
    blk9_apply, blk10_apply]
  rfl

/-- An index of the array is in point `t`'s block iff each coordinate is in the block's range on its axis. -/
theorem mem_blk (t : Fin cfg1.N) (i : S100000x128.Idx) :
    i ∈ ((cfg1.win 11).blk t).view.set ↔ ∀ a : Fin 2, win1_11.index t a * S4000x128.size a ≤ (i a).val ∧ (i a).val < win1_11.index t a * S4000x128.size a + S4000x128.size a := by
  show i ∈ ((View.whole main_v185).slice (win1_11.rect t)).set ↔ _
  rw [View.set_slice_whole, Rect.mem_set_unit]
  exact Iff.rfl

/-- The 25 blocks tile the array: row `r` lies in block `r / 4000`. -/
theorem cover (i : S100000x128.Idx) : ∃ t : Fin cfg1.N, (cfg1.win 11).flush t = true ∧ i ∈ ((cfg1.win 11).blk t).view.set := by
  have hi0 : (i 0).val < 100000 := (i 0).isLt
  have hi1 : (i 1).val < 128 := (i 1).isLt
  let t : Fin cfg1.N := ⟨(i 0).val / 4000, by show (i 0).val / 4000 < 25; omega⟩
  obtain ⟨e0, e1, e2, e3, e4, e5, e6, e7, e8, e9, e10, e11, e12, e13, e14, e15, e16, e17, e18, e19, e20, e21, e22, e23⟩ := idx_facts t
  have ht : t.val = (i 0).val / 4000 := rfl
  refine ⟨t, flush1_11 t, ?_⟩
  rw [mem_blk]
  intro a
  match a with
  | ⟨0, _⟩ => show win1_11.index t (0 : Fin 2) * 4000 ≤ (i 0).val ∧ (i 0).val < win1_11.index t (0 : Fin 2) * 4000 + 4000; rw [e22, ht]; omega
  | ⟨1, _⟩ => show win1_11.index t (1 : Fin 2) * 128 ≤ (i 1).val ∧ (i 1).val < win1_11.index t (1 : Fin 2) * 128 + 128; rw [e23]; omega

/-- After the launch the output array is the layer function of the arrays the launch found. -/
theorem value (c : Dev nD) : (dat1 V c).arrAt 11 cfg1.N = G V c :=
  (dat1 V c).arrAt_eq_of_cover 11 (G V c) (fun t _ => flushed_eq V c t) (cover)

end Array

end Cert.Rgcn.Region1

end
-- ==== Proof.Region2.lean ====
/-
  Region 2 of the kernel's program: one launch of the fused layer over 25 blocks of 4000 nodes.  At grid point `t`
  the body reads rows 4000·t … 4000·t + 3999 of the node features and of the four mean aggregates, the five
  128 × 128 matrices and the bias row whole, and writes the same rows of the output: at row `p` of the block and
  feature `q`,

      bias q + ∑ₖ x(p,k)·root(k,q) + ∑ₖ m₀(p,k)·w₀(k,q) + … + ∑ₖ m₃(p,k)·w₃(k,q)

  (a conversion to bfloat16 on the way into a product is the identity on the extended reals).  The 25 blocks tile
  the array, so after the launch the output array is the layer function of the arrays the launch found — stated for
  ANY contents `V` at the launch, so that nothing here depends on what ran before.
-/
import proofs.«164069_j28346784153940_1_alg».proof.Proof.Spec
import proofs.«164069_j28346784153940_1_alg».proof.Proof.LibDense
import proofs.«164069_j28346784153940_1_alg».proof.Proof.Gen.KernelIdeal.Frame
import Idealize.ShloMosaic.Lib.Pipeline.Value
import Idealize.ShloMosaic.Lib.ValueLayout

set_option maxRecDepth 16384

noncomputable section

namespace Cert.Rgcn.Region2

open Idealize.ShloMosaic Idealize.ShloMosaic.ValueIdx Idealize.ShloMosaic.TcCoe Idealize.SL.Sem
open Cert.KernelIdeal Cert.KernelIdeal.Gen Cert.Rgcn
open Idealize.ShloMosaic.Pipeline (Dat)

theorem hz : (![0, 0] : Fin 2 → Nat) = fun _ => 0 := funext fun a => by fin_cases a <;> rfl

/-- A product of a block of rows with a matrix, into the zero splat, at (p, q). -/
theorem prod_apply (A : FVec Ideal S4000x128 .f32) (B : FVec Ideal S128x128 .f32) (h1 : FTy.bits .bf16 < FTy.bits .f32)
    (p : Fin 4000) (q : Fin 128) :
    matmul dot_S4000x128_S128x128_S4000x128_1_0_0_1_n_n none (truncf .bf16 A h1) (truncf .bf16 B h1)
        (constant (F := Ideal) S4000x128 .f32 0x00000000#32) (ix2 p q)
      = ∑ k : Fin 128, A (ix2 p k) * B (ix2 k q) :=
  Cert.Dense.matmul_zero_apply dot_S4000x128_S128x128_S4000x128_1_0_0_1_n_n.wf none
    (truncf .bf16 A h1 : FVec Ideal S4000x128 .bf16) (truncf .bf16 B h1 : FVec Ideal S128x128 .bf16) p q

/-- The block the body stores, at row `p` of the block and feature `q`, from the blocks it loaded. -/
theorem out_apply (x0 x1 x2 x3 x4 : Vec Ideal S4000x128 .f32) (x5 x6 x7 x8 x9 : Vec Ideal S128x128 .f32)
    (x10 : Vec Ideal S1x128 .f32) (p : Fin 4000) (q : Fin 128) :
    out2_11 (F := Ideal) x0 x1 x2 x3 x4 x5 x6 x7 x8 x9 x10 (ix2 p q)
      = (x10 (ix2 (0 : Fin 1) q) + (∑ k : Fin 128, x0 (ix2 p k) * x5 (ix2 k q)) + (∑ k : Fin 128, x1 (ix2 p k) * x6 (ix2 k q))
          + (∑ k : Fin 128, x2 (ix2 p k) * x7 (ix2 k q)) + (∑ k : Fin 128, x3 (ix2 p k) * x8 (ix2 k q))
          + (∑ k : Fin 128, x4 (ix2 p k) * x9 (ix2 k q))) := by
  unfold out2_11
  rw [View.canon_unit_zero hz]
  simp only [View.ld_unit_zero (S := S4000x128) hz, View.ld_unit_zero (S := S128x128) hz, View.ld_unit_zero (S := S1x128) hz]
  unfold k2_pay1 k2_pay2 k2_pay3 k2_pay4 k2_pay5 k2_pay6 k2_pay7 k2_pay8
  simp only [shapeCast_self]

  simp only [addf_apply, prod_apply]
  refine congrArg (· + _ + _ + _ + _ + _) ?_
  exact broadcastTo_1b_ab_apply x10 _ p q

/-! ## From blocks to the array -/

section Array

variable (V : (c : Dev nD) → (b : Ref sig .tc) → Buf (Elt Ideal) ((c : Thread nD τ).loc b))

/-- The printed index maps over the 25 grid points: the row windows sit at block row `t`, column block 0; the
    matrices and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

/-- Row `p` of block `t` is row 4000·t + p of the array. -/
def row (t : Fin cfg2.N) (p : Fin 4000) : Fin 100000 :=
  ⟨t.val * 4000 + p.val, by have h : t.val < 25 := t.isLt; have := p.isLt; omega⟩

theorem blk0_apply (c : Dev nD) (t : Fin cfg2.N) (p : Fin 4000) (k : Fin 128) :
    iblk2 V c 0 t (ix2 p k) = (V c main_v185 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v185 : S100000x128.Idx → EReal) (((cfg2.win 0).blk t).view.emb (ix2 p k)) = _
  refine congrArg (V c main_v185 : S100000x128.Idx → EReal) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

theorem blk1_apply (c : Dev nD) (t : Fin cfg2.N) (p : Fin 4000) (k : Fin 128) :
    iblk2 V c 1 t (ix2 p k) = (V c main_v213 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v213 : S100000x128.Idx → EReal) (((cfg2.win 1).blk t).view.emb (ix2 p k)) = _
  refine congrArg (V c main_v213 : S100000x128.Idx → EReal) (funext fun a => Fin.ext ?_)
  match a with
  | ⟨0, _⟩ => show win2_1.index t (0 : Fin 2) * 4000 + 1 * p.val = t.val * 4000 + p.val; rw [e2]; omega
  | ⟨1, _⟩ => show win2_1.index t (1 : Fin 2) * 128 + 1 * k.val = k.val; rw [e3]; omega

theorem blk2_apply (c : Dev nD) (t : Fin cfg2.N) (p : Fin 4000) (k : Fin 128) :
    iblk2 V c 2 t (ix2 p k) = (V c main_v230 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v230 : S100000x128.Idx → EReal) (((cfg2.win 2).blk t).view.emb (ix2 p k)) = _
  refine congrArg (V c main_v230 : S100000x128.Idx → EReal) (funext fun a => Fin.ext ?_)
  match a with
  | ⟨0, _⟩ => show win2_2.index t (0 : Fin 2) * 4000 + 1 * p.val = t.val * 4000 + p.val; rw [e4]; omega
  | ⟨1, _⟩ => show win2_2.index t (1 : Fin 2) * 128 + 1 * k.val = k.val; rw [e5]; omega

theorem blk3_apply (c : Dev nD) (t : Fin cfg2.N) (p : Fin 4000) (k : Fin 128) :
    iblk2 V c 3 t (ix2 p k) = (V c main_v247 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v247 : S100000x128.Idx → EReal) (((cfg2.win 3).blk t).view.emb (ix2 p k)) = _
  refine congrArg (V c main_v247 : S100000x128.Idx → EReal) (funext fun a => Fin.ext ?_)
  match a with
  | ⟨0, _⟩ => show win2_3.index t (0 : Fin 2) * 4000 + 1 * p.val = t.val * 4000 + p.val; rw [e6]; omega
  | ⟨1, _⟩ => show win2_3.index t (1 : Fin 2) * 128 + 1 * k.val = k.val; rw [e7]; omega

theorem blk4_apply (c : Dev nD) (t : Fin cfg2.N) (p : Fin 4000) (k : Fin 128) :
    iblk2 V c 4 t (ix2 p k) = (V c main_v264 : S100000x128.Idx → EReal) (ix2 (row t p) k) := by
  obtain ⟨e0, e1, e2, e3, e4, e5, e6, e7, e8, e9, e10, e11, e12, e13, e14, e15, e16, e17, e18, e19, e20, e21, e22, e23⟩ := idx_facts t
  show (V c main_v264 : S100000x128.Idx → EReal) (((cfg2.win 4).blk t).view.emb (ix2 p k)) = _
  refine congrArg (V c main_v264 : S100000x128.Idx → EReal) (funext fun a => Fin.ext ?_)
  match a with
  | ⟨0, _⟩ => show win2_4.index t (0 : Fin 2) * 4000 + 1 * p.val = t.val * 4000 + p.val; rw [e8]; omega
  | ⟨1, _⟩ => show win2_4.index t (1 : Fin 2) * 128 + 1 * k.val = k.val; rw [e9]; omega

theorem blk5_apply (c : Dev nD) (t : Fin cfg2.N) (k q : Fin 128) :
    iblk2 V c 5 t (ix2 k q) = (V c main_v274 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v274 : S128x128.Idx → EReal) (((cfg2.win 5).blk t).view.emb (ix2 k q)) = _
  refine congrArg (V c main_v274 : S128x128.Idx → EReal) (funext fun a => Fin.ext ?_)
  match a with
  | ⟨0, _⟩ => show win2_5.index t (0 : Fin 2) * 128 + 1 * k.val = k.val; rw [e10]; omega
  | ⟨1, _⟩ => show win2_5.index t (1 : Fin 2) * 128 + 1 * q.val = q.val; rw [e11]; omega

theorem blk6_apply (c : Dev nD) (t : Fin cfg2.N) (k q : Fin 128) :
    iblk2 V c 6 t (ix2 k q) = (V c main_v266 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v266 : S128x128.Idx → EReal) (((cfg2.win 6).blk t).view.emb (ix2 k q)) = _
  refine congrArg (V c main_v266 : S128x128.Idx → EReal) (funext fun a => Fin.ext ?_)
  match a with
  | ⟨0, _⟩ => show win2_6.index t (0 : Fin 2) * 128 + 1 * k.val = k.val; rw [e12]; omega
  | ⟨1, _⟩ => show win2_6.index t (1 : Fin 2) * 128 + 1 * q.val = q.val; rw [e13]; omega

theorem blk7_apply (c : Dev nD) (t : Fin cfg2.N) (k q : Fin 128) :
    iblk2 V c 7 t (ix2 k q) = (V c main_v268 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v268 : S128x128.Idx → EReal) (((cfg2.win 7).blk t).view.emb (ix2 k q)) = _
  refine congrArg (V c main_v268 : S128x128.Idx → EReal) (funext fun a => Fin.ext ?_)
  match a with
  | ⟨0, _⟩ => show win2_7.index t (0 : Fin 2) * 128 + 1 * k.val = k.val; rw [e14]; omega
  | ⟨1, _⟩ => show win2_7.index t (1 : Fin 2) * 128 + 1 * q.val = q.val; rw [e15]; omega

theorem blk8_apply (c : Dev nD) (t : Fin cfg2.N) (k q : Fin 128) :
    iblk2 V c 8 t (ix2 k q) = (V c main_v270 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v270 : S128x128.Idx → EReal) (((cfg2.win 8).blk t).view.emb (ix2 k q)) = _
  refine congrArg (V c main_v270 : S128x128.Idx → EReal) (funext fun a => Fin.ext ?_)
  match a with
  | ⟨0, _⟩ => show win2_8.index t (0 : Fin 2) * 128 + 1 * k.val = k.val; rw [e16]; omega
  | ⟨1, _⟩ => show win2_8.index t (1 : Fin 2) * 128 + 1 * q.val = q.val; rw [e17]; omega

theorem blk9_apply (c : Dev nD) (t : Fin cfg2.N) (k q : Fin 128) :
    iblk2 V c 9 t (ix2 k q) = (V c main_v272 : S128x128.Idx → EReal) (ix2 k q) := by
  obtain ⟨e0, e1, e2, e3, e4, e5, e6, e7, e8, e9, e10, e11, e12, e13, e14, e15, e16, e17, e18, e19, e20, e21, e22, e23⟩ := idx_facts t
  show (V c main_v272 : S128x128.Idx → EReal) (((cfg2.win 9).blk t).view.emb (ix2 k q)) = _
  refine congrArg (V c main_v272 : S128x128.Idx → EReal) (funext fun a => Fin.ext ?_)
  match a with
  | ⟨0, _⟩ => show win2_9.index t (0 : Fin 2) * 128 + 1 * k.val = k.val; rw [e18]; omega
  | ⟨1, _⟩ => show win2_9.index t (1 : Fin 2) * 128 + 1 * q.val = q.val; rw [e19]; omega

theorem blk10_apply (c : Dev nD) (t : Fin cfg2.N) (q : Fin 128) :
    iblk2 V c 10 t (ix2 (0 : Fin 1) q) = (V c main_v277 : S1x128.Idx → EReal) (ix2 (0 : Fin 1) q) := by
  obtain ⟨e0, e1, e2, e3, e4, e5, e6, e7, e8, e9, e10, e11, e12, e13, e14, e15, e16, e17, e18, e19, e20, e21, e22, e23⟩ := idx_facts t
  show (V c main_v277 : S1x128.Idx → EReal) (((cfg2.win 10).blk t).view.emb (ix2 (0 : Fin 1) q)) = _
  refine congrArg (V c main_v277 : S1x128.Idx → EReal) (funext fun a => Fin.ext ?_)
  match a with
  | ⟨0, _⟩ => show win2_10.index t (0 : Fin 2) * 1 + 1 * 0 = 0; rw [e20]
  | ⟨1, _⟩ => show win2_10.index t (1 : Fin 2) * 128 + 1 * q.val = q.val; rw [e21]; omega

/-- The layer function of the arrays the launch found. -/
abbrev G (c : Dev nD) : S100000x128.Idx → EReal :=
  layer false (V c main_v185) (V c main_v213) (V c main_v230) (V c main_v247) (V c main_v264)
    (V c main_v274) (V c main_v266) (V c main_v268) (V c main_v270) (V c main_v272)
    (fun j => (V c main_v277 : S1x128.Idx → EReal) (ix2 (0 : Fin 1) j))

/-- What point `t` writes back is block `t` of the layer function. -/
theorem flushed_eq (c : Dev nD) (t : Fin cfg2.N) :
    (dat2 V c).flushed 11 t = ((cfg2.win 11).blk t).view.read (Elt Ideal) (G V c) := by
  obtain ⟨e0, e1, e2, e3, e4, e5, e6, e7, e8, e9, e10, e11, e12, e13, e14, e15, e16, e17, e18, e19, e20, e21, e22, e23⟩ := idx_facts t
  show (cfg2.win 11).cut (grid2.coords t) ((dat2 V c).after 11 t) = _
  rw [after2_11]
  funext j
  obtain ⟨p, q, rfl⟩ : ∃ (p : Fin 4000) (q : Fin 128), j = ix2 p q := ⟨j 0, j 1, eq_ix2 j⟩
  refine (out_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) p q).trans ?_
  have hemb : ((cfg2.win 11).blk t).view.emb (ix2 p q) = (ix2 (row t p) q : S100000x128.Idx) := by
    funext a; apply Fin.ext
    match a with
    | ⟨0, _⟩ => show win2_11.index t (0 : Fin 2) * 4000 + 1 * p.val = t.val * 4000 + p.val; rw [e22]; omega
    | ⟨1, _⟩ => show win2_11.index t (1 : Fin 2) * 128 + 1 * q.val = q.val; rw [e23]; omega
  show _ = G V c (((cfg2.win 11).blk t).view.emb (ix2 p q))
  rw [hemb]
  simp only [blk0_apply, blk1_apply, blk2_apply, blk3_apply, blk4_apply, blk5_apply, blk6_apply, blk7_apply, blk8_apply,
    blk9_apply, blk10_apply]
  rfl

/-- An index of the array is in point `t`'s block iff each coordinate is in the block's range on its axis. -/
theorem mem_blk (t : Fin cfg2.N) (i : S100000x128.Idx) :
    i ∈ ((cfg2.win 11).blk t).view.set ↔ ∀ a : Fin 2, win2_11.index t a * S4000x128.size a ≤ (i a).val ∧ (i a).val < win2_11.index t a * S4000x128.size a + S4000x128.size a := by
  show i ∈ ((View.whole main_v278).slice (win2_11.rect t)).set ↔ _
  rw [View.set_slice_whole, Rect.mem_set_unit]
  exact Iff.rfl

/-- The 25 blocks tile the array: row `r` lies in block `r / 4000`. -/
theorem cover (i : S100000x128.Idx) : ∃ t : Fin cfg2.N, (cfg2.win 11).flush t = true ∧ i ∈ ((cfg2.win 11).blk t).view.set := by
  have hi0 : (i 0).val < 100000 := (i 0).isLt
  have hi1 : (i 1).val < 128 := (i 1).isLt
  let t : Fin cfg2.N := ⟨(i 0).val / 4000, by show (i 0).val / 4000 < 25; omega⟩
  obtain ⟨e0, e1, e2, e3, e4, e5, e6, e7, e8, e9, e10, e11, e12, e13, e14, e15, e16, e17, e18, e19, e20, e21, e22, e23⟩ := idx_facts t
  have ht : t.val = (i 0).val / 4000 := rfl
  refine ⟨t, flush2_11 t, ?_⟩
  rw [mem_blk]
  intro a
  match a with
  | ⟨0, _⟩ => show win2_11.index t (0 : Fin 2) * 4000 ≤ (i 0).val ∧ (i 0).val < win2_11.index t (0 : Fin 2) * 4000 + 4000; rw [e22, ht]; omega
  | ⟨1, _⟩ => show win2_11.index t (1 : Fin 2) * 128 ≤ (i 1).val ∧ (i 1).val < win2_11.index t (1 : Fin 2) * 128 + 128; rw [e23]; omega

/-- After the launch the output array is the layer function of the arrays the launch found. -/
theorem value (c : Dev nD) : (dat2 V c).arrAt 11 cfg2.N = G V c :=
  (dat2 V c).arrAt_eq_of_cover 11 (G V c) (fun t _ => flushed_eq V c t) (cover)

end Array

end Cert.Rgcn.Region2

end
-- ==== Proof.Host0.lean ====
/-
  The host operations in front of layer 0's launch, read at the buffers the launch takes, from ANY buffer contents
  `W` at the stretch's entry.  The stretch writes none of the arrays it starts from (the edge list, the edge types,
  the stacked weights, the layer's input features); it leaves in four buffers the per-relation mean aggregates of the
  input features, each the one chain of operations `mean` names, and in six more the layer's root matrix, its four
  relation matrices and its bias row: slices of the stacked weights with the unit axes dropped, read here at an index.
-/
import proofs.«164069_j28346784153940_1_alg».proof.Proof.Spec
import proofs.«164069_j28346784153940_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section
namespace Cert.Rgcn.Host0

open Idealize.ShloMosaic Idealize.ShloMosaic.ValueIdx Idealize.ShloMosaic.TcCoe
open Cert.KernelIdeal Cert.KernelIdeal.Gen Cert.Rgcn

/-! ## Slices of the stacked weights, read at an index -/

/-- A [3, 4, 128, 128] stack cut to its matrix (l, r) and the two unit axes dropped reads, at (i, j), the stack at
    (l, r, i, j). -/
theorem relRead {α : Type} (a3 : S3x4x128x128.Idx → α) (l : Fin 3) (r : Fin 4)
    (h : S3x4x128x128.Slices ![l.val, r.val, 0, 0] S1x1x128x128) (h' : S1x1x128x128.ShapeCasts S128x128) :
    shapeCast S128x128 (extractStridedSlice S1x1x128x128 ![l.val, r.val, 0, 0] a3 h) h'
      = fun i => a3 (ix4 l r (i 0) (i 1)) := by
  funext i
  refine (shapeCast_apply _ h' i (ix4 (0 : Fin 1) (0 : Fin 1) (i 0) (i 1)) ?_).trans ?_
  · rw [Shape.rowMajor_val_four, Shape.rowMajor_val_two]
    show ((0 * 1 + 0) * 128 + (i 0).val) * 128 + (i 1).val = (i 0).val * 128 + (i 1).val
    omega
  · exact extractStridedSlice_apply _ a3 h _ (ix4 l r (i 0) (i 1)) (fun ax => by
      match ax with
      | ⟨0, _⟩ => rfl
      | ⟨1, _⟩ => rfl
      | ⟨2, _⟩ => exact (Nat.zero_add _).symm
      | ⟨3, _⟩ => exact (Nat.zero_add _).symm)

/-- A [3, 128, 128] stack cut to its matrix l and the unit axis dropped reads, at (i, j), the stack at (l, i, j). -/
theorem rootRead {α : Type} (a4 : S3x128x128.Idx → α) (l : Fin 3)
    (h : S3x128x128.Slices ![l.val, 0, 0] S1x128x128) (h' : S1x128x128.ShapeCasts S128x128) :
    shapeCast S128x128 (extractStridedSlice S1x128x128 ![l.val, 0, 0] a4 h) h'
      = fun i => a4 (ix3 l (i 0) (i 1)) := by
  funext i
  refine (shapeCast_apply _ h' i (ix3 (0 : Fin 1) (i 0) (i 1)) ?_).trans ?_
  · rw [Shape.rowMajor_val_three, Shape.rowMajor_val_two]
    show (0 * 128 + (i 0).val) * 128 + (i 1).val = (i 0).val * 128 + (i 1).val
    omega
  · exact extractStridedSlice_apply _ a4 h _ (ix3 l (i 0) (i 1)) (fun ax => by
      match ax with
      | ⟨0, _⟩ => rfl
      | ⟨1, _⟩ => exact (Nat.zero_add _).symm
      | ⟨2, _⟩ => exact (Nat.zero_add _).symm)

/-- A [3, 128] stack cut to its row l, flattened and given a unit axis again reads, at (0, j), the stack at (l, j). -/
theorem biasRead {α : Type} (a5 : S3x128.Idx → α) (l : Fin 3)
    (h : S3x128.Slices ![l.val, 0] S1x128) (h1 : S1x128.ShapeCasts S128) (h2 : S128.ShapeCasts S1x128) :
    (fun j : Fin 128 => shapeCast S1x128 (shapeCast S128 (extractStridedSlice S1x128 ![l.val, 0] a5 h) h1) h2 (ix2 (0 : Fin 1) j))
      = fun j => a5 (ix2 l j) := by
  funext j
  refine (shapeCast_a_1a_apply _ h2 (0 : Fin 1) j).trans ?_
  refine (shapeCast_1a_a_apply _ h1 j).trans ?_
  exact slice2_axis0_apply l.val a5 h (0 : Fin 1) j l rfl

variable (W : Valuation τ sig (Elt Ideal))

local macro "B" r:term:max : term => `(Proc.devRef (τ := τ) .tc $r)

/-! ## What the stretch does not write -/

set_option maxHeartbeats 4000000 in
/-- The layer's input features are as the stretch found them. -/
theorem x_eq : StableHlo.after (hostOps0 (F := Ideal)) W (B main_arg2) = W (B main_arg2) := by
  after_results_simp

set_option maxHeartbeats 4000000 in
/-- The edge list is as the stretch found it. -/
theorem e_eq : StableHlo.after (hostOps0 (F := Ideal)) W (B main_arg0) = W (B main_arg0) := by
  after_results_simp

set_option maxHeartbeats 4000000 in
/-- The edge types are as the stretch found them. -/
theorem t_eq : StableHlo.after (hostOps0 (F := Ideal)) W (B main_arg1) = W (B main_arg1) := by
  after_results_simp

set_option maxHeartbeats 4000000 in
/-- The stacked relation matrices are as the stretch found them. -/
theorem a3_eq : StableHlo.after (hostOps0 (F := Ideal)) W (B main_arg3) = W (B main_arg3) := by
  after_results_simp

set_option maxHeartbeats 4000000 in
/-- The stacked root matrices are as the stretch found them. -/
theorem a4_eq : StableHlo.after (hostOps0 (F := Ideal)) W (B main_arg4) = W (B main_arg4) := by
  after_results_simp

set_option maxHeartbeats 4000000 in
/-- The stacked bias rows are as the stretch found them. -/
theorem a5_eq : StableHlo.after (hostOps0 (F := Ideal)) W (B main_arg5) = W (B main_arg5) := by
  after_results_simp

/-! ## The four mean aggregates -/

set_option maxHeartbeats 4000000 in
/-- The aggregate of relation 0: the stretch's chain for it, operation by operation, is the chain `mean` names. -/
theorem mean0_eq : StableHlo.after (hostOps0 (F := Ideal)) W (B main_v27)
    = mean 0#32 (W (B main_arg2)) (W (B main_arg0)) (W (B main_arg1)) := by
  after_results_simp
  unfold mean mask srcCol dstCol
  rfl

set_option maxHeartbeats 4000000 in
/-- The aggregate of relation 1: the stretch's chain for it, operation by operation, is the chain `mean` names. -/
theorem mean1_eq : StableHlo.after (hostOps0 (F := Ideal)) W (B main_v44)
    = mean 1#32 (W (B main_arg2)) (W (B main_arg0)) (W (B main_arg1)) := by
  after_results_simp
  unfold mean mask srcCol dstCol
  rfl

set_option maxHeartbeats 4000000 in
/-- The aggregate of relation 2: the stretch's chain for it, operation by operation, is the chain `mean` names. -/
theorem mean2_eq : StableHlo.after (hostOps0 (F := Ideal)) W (B main_v61)
    = mean 2#32 (W (B main_arg2)) (W (B main_arg0)) (W (B main_arg1)) := by
  after_results_simp
  unfold mean mask srcCol dstCol
  rfl

set_option maxHeartbeats 4000000 in
/-- The aggregate of relation 3: the stretch's chain for it, operation by operation, is the chain `mean` names. -/
theorem mean3_eq : StableHlo.after (hostOps0 (F := Ideal)) W (B main_v78)
    = mean 3#32 (W (B main_arg2)) (W (B main_arg0)) (W (B main_arg1)) := by
  after_results_simp
  unfold mean mask srcCol dstCol
  rfl

/-! ## The layer's weights -/

set_option maxHeartbeats 4000000 in
/-- The root matrix of layer 0. -/
theorem root_eq : StableHlo.after (hostOps0 (F := Ideal)) W (B main_v88) = rootW (W (B main_arg4)) 0 := by
  after_results_simp
  exact rootRead (W (B main_arg4)) 0 _ _

set_option maxHeartbeats 4000000 in
/-- Relation 0's matrix of layer 0. -/
theorem w0_eq : StableHlo.after (hostOps0 (F := Ideal)) W (B main_v80) = relW (W (B main_arg3)) 0 0 := by
  after_results_simp
  exact relRead (W (B main_arg3)) 0 0 _ _

set_option maxHeartbeats 4000000 in
/-- Relation 1's matrix of layer 0. -/
theorem w1_eq : StableHlo.after (hostOps0 (F := Ideal)) W (B main_v82) = relW (W (B main_arg3)) 0 1 := by
  after_results_simp
  exact relRead (W (B main_arg3)) 0 1 _ _

set_option maxHeartbeats 4000000 in
/-- Relation 2's matrix of layer 0. -/
theorem w2_eq : StableHlo.after (hostOps0 (F := Ideal)) W (B main_v84) = relW (W (B main_arg3)) 0 2 := by
  after_results_simp
  exact relRead (W (B main_arg3)) 0 2 _ _

set_option maxHeartbeats 4000000 in
/-- Relation 3's matrix of layer 0. -/
theorem w3_eq : StableHlo.after (hostOps0 (F := Ideal)) W (B main_v86) = relW (W (B main_arg3)) 0 3 := by
  after_results_simp
  exact relRead (W (B main_arg3)) 0 3 _ _

set_option maxHeartbeats 4000000 in
/-- The bias row of layer 0. -/
theorem bias_eq : (fun j : Fin 128 => StableHlo.after (hostOps0 (F := Ideal)) W (B main_v91) (ix2 (0 : Fin 1) j))
    = biasW (W (B main_arg5)) 0 := by
  after_results_simp
  exact biasRead (W (B main_arg5)) 0 _ _ _

end Cert.Rgcn.Host0

end
-- ==== Proof.Host1.lean ====
/-
  The host operations in front of layer 1's launch, read at the buffers the launch takes, from ANY buffer contents
  `W` at the stretch's entry.  The stretch writes none of the arrays it starts from (the edge list, the edge types,
  the stacked weights, the layer's input features); it leaves in four buffers the per-relation mean aggregates of the
  input features, each the one chain of operations `mean` names, and in six more the layer's root matrix, its four
  relation matrices and its bias row: slices of the stacked weights with the unit axes dropped, read here at an index.
-/
import proofs.«164069_j28346784153940_1_alg».proof.Proof.Spec
import proofs.«164069_j28346784153940_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section
namespace Cert.Rgcn.Host1

open Idealize.ShloMosaic Idealize.ShloMosaic.ValueIdx Idealize.ShloMosaic.TcCoe
open Cert.KernelIdeal Cert.KernelIdeal.Gen Cert.Rgcn

/-! ## Slices of the stacked weights, read at an index -/

/-- A [3, 4, 128, 128] stack cut to its matrix (l, r) and the two unit axes dropped reads, at (i, j), the stack at
    (l, r, i, j). -/
theorem relRead {α : Type} (a3 : S3x4x128x128.Idx → α) (l : Fin 3) (r : Fin 4)
    (h : S3x4x128x128.Slices ![l.val, r.val, 0, 0] S1x1x128x128) (h' : S1x1x128x128.ShapeCasts S128x128) :
    shapeCast S128x128 (extractStridedSlice S1x1x128x128 ![l.val, r.val, 0, 0] a3 h) h'
      = fun i => a3 (ix4 l r (i 0) (i 1)) := by
  funext i
  refine (shapeCast_apply _ h' i (ix4 (0 : Fin 1) (0 : Fin 1) (i 0) (i 1)) ?_).trans ?_
  · rw [Shape.rowMajor_val_four, Shape.rowMajor_val_two]
    show ((0 * 1 + 0) * 128 + (i 0).val) * 128 + (i 1).val = (i 0).val * 128 + (i 1).val
    omega
  · exact extractStridedSlice_apply _ a3 h _ (ix4 l r (i 0) (i 1)) (fun ax => by
      match ax with
      | ⟨0, _⟩ => rfl
      | ⟨1, _⟩ => rfl
      | ⟨2, _⟩ => exact (Nat.zero_add _).symm
      | ⟨3, _⟩ => exact (Nat.zero_add _).symm)

/-- A [3, 128, 128] stack cut to its matrix l and the unit axis dropped reads, at (i, j), the stack at (l, i, j). -/
theorem rootRead {α : Type} (a4 : S3x128x128.Idx → α) (l : Fin 3)
    (h : S3x128x128.Slices ![l.val, 0, 0] S1x128x128) (h' : S1x128x128.ShapeCasts S128x128) :
    shapeCast S128x128 (extractStridedSlice S1x128x128 ![l.val, 0, 0] a4 h) h'
      = fun i => a4 (ix3 l (i 0) (i 1)) := by
  funext i
  refine (shapeCast_apply _ h' i (ix3 (0 : Fin 1) (i 0) (i 1)) ?_).trans ?_
  · rw [Shape.rowMajor_val_three, Shape.rowMajor_val_two]
    show (0 * 128 + (i 0).val) * 128 + (i 1).val = (i 0).val * 128 + (i 1).val
    omega
  · exact extractStridedSlice_apply _ a4 h _ (ix3 l (i 0) (i 1)) (fun ax => by
      match ax with
      | ⟨0, _⟩ => rfl
      | ⟨1, _⟩ => exact (Nat.zero_add _).symm
      | ⟨2, _⟩ => exact (Nat.zero_add _).symm)

/-- A [3, 128] stack cut to its row l, flattened and given a unit axis again reads, at (0, j), the stack at (l, j). -/
theorem biasRead {α : Type} (a5 : S3x128.Idx → α) (l : Fin 3)
    (h : S3x128.Slices ![l.val, 0] S1x128) (h1 : S1x128.ShapeCasts S128) (h2 : S128.ShapeCasts S1x128) :
    (fun j : Fin 128 => shapeCast S1x128 (shapeCast S128 (extractStridedSlice S1x128 ![l.val, 0] a5 h) h1) h2 (ix2 (0 : Fin 1) j))
      = fun j => a5 (ix2 l j) := by
  funext j
  refine (shapeCast_a_1a_apply _ h2 (0 : Fin 1) j).trans ?_
  refine (shapeCast_1a_a_apply _ h1 j).trans ?_
  exact slice2_axis0_apply l.val a5 h (0 : Fin 1) j l rfl

variable (W : Valuation τ sig (Elt Ideal))

local macro "B" r:term:max : term => `(Proc.devRef (τ := τ) .tc $r)

/-! ## What the stretch does not write -/

set_option maxHeartbeats 4000000 in
/-- The layer's input features are as the stretch found them. -/
theorem x_eq : StableHlo.after (hostOps1 (F := Ideal)) W (B main_v92) = W (B main_v92) := by
  after_results_simp

set_option maxHeartbeats 4000000 in
/-- The edge list is as the stretch found it. -/
theorem e_eq : StableHlo.after (hostOps1 (F := Ideal)) W (B main_arg0) = W (B main_arg0) := by
  after_results_simp

set_option maxHeartbeats 4000000 in
/-- The edge types are as the stretch found them. -/
theorem t_eq : StableHlo.after (hostOps1 (F := Ideal)) W (B main_arg1) = W (B main_arg1) := by
  after_results_simp

set_option maxHeartbeats 4000000 in
/-- The stacked relation matrices are as the stretch found them. -/
theorem a3_eq : StableHlo.after (hostOps1 (F := Ideal)) W (B main_arg3) = W (B main_arg3) := by
  after_results_simp

set_option maxHeartbeats 4000000 in
/-- The stacked root matrices are as the stretch found them. -/
theorem a4_eq : StableHlo.after (hostOps1 (F := Ideal)) W (B main_arg4) = W (B main_arg4) := by
  after_results_simp

set_option maxHeartbeats 4000000 in
/-- The stacked bias rows are as the stretch found them. -/
theorem a5_eq : StableHlo.after (hostOps1 (F := Ideal)) W (B main_arg5) = W (B main_arg5) := by
  after_results_simp

/-! ## The four mean aggregates -/

set_option maxHeartbeats 4000000 in
/-- The aggregate of relation 0: the stretch's chain for it, operation by operation, is the chain `mean` names. -/
theorem mean0_eq : StableHlo.after (hostOps1 (F := Ideal)) W (B main_v120)
    = mean 0#32 (W (B main_v92)) (W (B main_arg0)) (W (B main_arg1)) := by
  after_results_simp
  unfold mean mask srcCol dstCol
  rfl

set_option maxHeartbeats 4000000 in
/-- The aggregate of relation 1: the stretch's chain for it, operation by operation, is the chain `mean` names. -/
theorem mean1_eq : StableHlo.after (hostOps1 (F := Ideal)) W (B main_v137)
    = mean 1#32 (W (B main_v92)) (W (B main_arg0)) (W (B main_arg1)) := by
  after_results_simp
  unfold mean mask srcCol dstCol
  rfl

set_option maxHeartbeats 4000000 in
/-- The aggregate of relation 2: the stretch's chain for it, operation by operation, is the chain `mean` names. -/
theorem mean2_eq : StableHlo.after (hostOps1 (F := Ideal)) W (B main_v154)
    = mean 2#32 (W (B main_v92)) (W (B main_arg0)) (W (B main_arg1)) := by
  after_results_simp
  unfold mean mask srcCol dstCol
  rfl

set_option maxHeartbeats 4000000 in
/-- The aggregate of relation 3: the stretch's chain for it, operation by operation, is the chain `mean` names. -/
theorem mean3_eq : StableHlo.after (hostOps1 (F := Ideal)) W (B main_v171)
    = mean 3#32 (W (B main_v92)) (W (B main_arg0)) (W (B main_arg1)) := by
  after_results_simp
  unfold mean mask srcCol dstCol
  rfl

/-! ## The layer's weights -/

set_option maxHeartbeats 4000000 in
/-- The root matrix of layer 1. -/
theorem root_eq : StableHlo.after (hostOps1 (F := Ideal)) W (B main_v181) = rootW (W (B main_arg4)) 1 := by
  after_results_simp
  exact rootRead (W (B main_arg4)) 1 _ _

set_option maxHeartbeats 4000000 in
/-- Relation 0's matrix of layer 1. -/
theorem w0_eq : StableHlo.after (hostOps1 (F := Ideal)) W (B main_v173) = relW (W (B main_arg3)) 1 0 := by
  after_results_simp
  exact relRead (W (B main_arg3)) 1 0 _ _

set_option maxHeartbeats 4000000 in
/-- Relation 1's matrix of layer 1. -/
theorem w1_eq : StableHlo.after (hostOps1 (F := Ideal)) W (B main_v175) = relW (W (B main_arg3)) 1 1 := by
  after_results_simp
  exact relRead (W (B main_arg3)) 1 1 _ _

set_option maxHeartbeats 4000000 in
/-- Relation 2's matrix of layer 1. -/
theorem w2_eq : StableHlo.after (hostOps1 (F := Ideal)) W (B main_v177) = relW (W (B main_arg3)) 1 2 := by
  after_results_simp
  exact relRead (W (B main_arg3)) 1 2 _ _

set_option maxHeartbeats 4000000 in
/-- Relation 3's matrix of layer 1. -/
theorem w3_eq : StableHlo.after (hostOps1 (F := Ideal)) W (B main_v179) = relW (W (B main_arg3)) 1 3 := by
  after_results_simp
  exact relRead (W (B main_arg3)) 1 3 _ _

set_option maxHeartbeats 4000000 in
/-- The bias row of layer 1. -/
theorem bias_eq : (fun j : Fin 128 => StableHlo.after (hostOps1 (F := Ideal)) W (B main_v184) (ix2 (0 : Fin 1) j))
    = biasW (W (B main_arg5)) 1 := by
  after_results_simp
  exact biasRead (W (B main_arg5)) 1 _ _ _

end Cert.Rgcn.Host1

end
-- ==== Proof.Host2.lean ====
/-
  The host operations in front of layer 2's launch, read at the buffers the launch takes, from ANY buffer contents
  `W` at the stretch's entry.  The stretch writes none of the arrays it starts from (the edge list, the edge types,
  the stacked weights, the layer's input features); it leaves in four buffers the per-relation mean aggregates of the
  input features, each the one chain of operations `mean` names, and in six more the layer's root matrix, its four
  relation matrices and its bias row: slices of the stacked weights with the unit axes dropped, read here at an index.
-/
import proofs.«164069_j28346784153940_1_alg».proof.Proof.Spec
import proofs.«164069_j28346784153940_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section
namespace Cert.Rgcn.Host2

open Idealize.ShloMosaic Idealize.ShloMosaic.ValueIdx Idealize.ShloMosaic.TcCoe
open Cert.KernelIdeal Cert.KernelIdeal.Gen Cert.Rgcn

/-! ## Slices of the stacked weights, read at an index -/

/-- A [3, 4, 128, 128] stack cut to its matrix (l, r) and the two unit axes dropped reads, at (i, j), the stack at
    (l, r, i, j). -/
theorem relRead {α : Type} (a3 : S3x4x128x128.Idx → α) (l : Fin 3) (r : Fin 4)
    (h : S3x4x128x128.Slices ![l.val, r.val, 0, 0] S1x1x128x128) (h' : S1x1x128x128.ShapeCasts S128x128) :
    shapeCast S128x128 (extractStridedSlice S1x1x128x128 ![l.val, r.val, 0, 0] a3 h) h'
      = fun i => a3 (ix4 l r (i 0) (i 1)) := by
  funext i
  refine (shapeCast_apply _ h' i (ix4 (0 : Fin 1) (0 : Fin 1) (i 0) (i 1)) ?_).trans ?_
  · rw [Shape.rowMajor_val_four, Shape.rowMajor_val_two]
    show ((0 * 1 + 0) * 128 + (i 0).val) * 128 + (i 1).val = (i 0).val * 128 + (i 1).val
    omega
  · exact extractStridedSlice_apply _ a3 h _ (ix4 l r (i 0) (i 1)) (fun ax => by
      match ax with
      | ⟨0, _⟩ => rfl
      | ⟨1, _⟩ => rfl
      | ⟨2, _⟩ => exact (Nat.zero_add _).symm
      | ⟨3, _⟩ => exact (Nat.zero_add _).symm)

/-- A [3, 128, 128] stack cut to its matrix l and the unit axis dropped reads, at (i, j), the stack at (l, i, j). -/
theorem rootRead {α : Type} (a4 : S3x128x128.Idx → α) (l : Fin 3)
    (h : S3x128x128.Slices ![l.val, 0, 0] S1x128x128) (h' : S1x128x128.ShapeCasts S128x128) :
    shapeCast S128x128 (extractStridedSlice S1x128x128 ![l.val, 0, 0] a4 h) h'
      = fun i => a4 (ix3 l (i 0) (i 1)) := by
  funext i
  refine (shapeCast_apply _ h' i (ix3 (0 : Fin 1) (i 0) (i 1)) ?_).trans ?_
  · rw [Shape.rowMajor_val_three, Shape.rowMajor_val_two]
    show (0 * 128 + (i 0).val) * 128 + (i 1).val = (i 0).val * 128 + (i 1).val
    omega
  · exact extractStridedSlice_apply _ a4 h _ (ix3 l (i 0) (i 1)) (fun ax => by
      match ax with
      | ⟨0, _⟩ => rfl
      | ⟨1, _⟩ => exact (Nat.zero_add _).symm
      | ⟨2, _⟩ => exact (Nat.zero_add _).symm)

/-- A [3, 128] stack cut to its row l, flattened and given a unit axis again reads, at (0, j), the stack at (l, j). -/
theorem biasRead {α : Type} (a5 : S3x128.Idx → α) (l : Fin 3)
    (h : S3x128.Slices ![l.val, 0] S1x128) (h1 : S1x128.ShapeCasts S128) (h2 : S128.ShapeCasts S1x128) :
    (fun j : Fin 128 => shapeCast S1x128 (shapeCast S128 (extractStridedSlice S1x128 ![l.val, 0] a5 h) h1) h2 (ix2 (0 : Fin 1) j))
      = fun j => a5 (ix2 l j) := by
  funext j
  refine (shapeCast_a_1a_apply _ h2 (0 : Fin 1) j).trans ?_
  refine (shapeCast_1a_a_apply _ h1 j).trans ?_
  exact slice2_axis0_apply l.val a5 h (0 : Fin 1) j l rfl

variable (W : Valuation τ sig (Elt Ideal))

local macro "B" r:term:max : term => `(Proc.devRef (τ := τ) .tc $r)

/-! ## What the stretch does not write -/

set_option maxHeartbeats 4000000 in
/-- The layer's input features are as the stretch found them. -/
theorem x_eq : StableHlo.after (hostOps2 (F := Ideal)) W (B main_v185) = W (B main_v185) := by
  after_results_simp

set_option maxHeartbeats 4000000 in
/-- The edge list is as the stretch found it. -/
theorem e_eq : StableHlo.after (hostOps2 (F := Ideal)) W (B main_arg0) = W (B main_arg0) := by
  after_results_simp

set_option maxHeartbeats 4000000 in
/-- The edge types are as the stretch found them. -/
theorem t_eq : StableHlo.after (hostOps2 (F := Ideal)) W (B main_arg1) = W (B main_arg1) := by
  after_results_simp

set_option maxHeartbeats 4000000 in
/-- The stacked relation matrices are as the stretch found them. -/
theorem a3_eq : StableHlo.after (hostOps2 (F := Ideal)) W (B main_arg3) = W (B main_arg3) := by
  after_results_simp

set_option maxHeartbeats 4000000 in
/-- The stacked root matrices are as the stretch found them. -/
theorem a4_eq : StableHlo.after (hostOps2 (F := Ideal)) W (B main_arg4) = W (B main_arg4) := by
  after_results_simp

set_option maxHeartbeats 4000000 in
/-- The stacked bias rows are as the stretch found them. -/
theorem a5_eq : StableHlo.after (hostOps2 (F := Ideal)) W (B main_arg5) = W (B main_arg5) := by
  after_results_simp

/-! ## The four mean aggregates -/

set_option maxHeartbeats 4000000 in
/-- The aggregate of relation 0: the stretch's chain for it, operation by operation, is the chain `mean` names. -/
theorem mean0_eq : StableHlo.after (hostOps2 (F := Ideal)) W (B main_v213)
    = mean 0#32 (W (B main_v185)) (W (B main_arg0)) (W (B main_arg1)) := by
  after_results_simp
  unfold mean mask srcCol dstCol
  rfl

set_option maxHeartbeats 4000000 in
/-- The aggregate of relation 1: the stretch's chain for it, operation by operation, is the chain `mean` names. -/
theorem mean1_eq : StableHlo.after (hostOps2 (F := Ideal)) W (B main_v230)
    = mean 1#32 (W (B main_v185)) (W (B main_arg0)) (W (B main_arg1)) := by
  after_results_simp
  unfold mean mask srcCol dstCol
  rfl

set_option maxHeartbeats 4000000 in
/-- The aggregate of relation 2: the stretch's chain for it, operation by operation, is the chain `mean` names. -/
theorem mean2_eq : StableHlo.after (hostOps2 (F := Ideal)) W (B main_v247)
    = mean 2#32 (W (B main_v185)) (W (B main_arg0)) (W (B main_arg1)) := by
  after_results_simp
  unfold mean mask srcCol dstCol
  rfl

set_option maxHeartbeats 4000000 in
/-- The aggregate of relation 3: the stretch's chain for it, operation by operation, is the chain `mean` names. -/
theorem mean3_eq : StableHlo.after (hostOps2 (F := Ideal)) W (B main_v264)
    = mean 3#32 (W (B main_v185)) (W (B main_arg0)) (W (B main_arg1)) := by
  after_results_simp
  unfold mean mask srcCol dstCol
  rfl

/-! ## The layer's weights -/

set_option maxHeartbeats 4000000 in
/-- The root matrix of layer 2. -/
theorem root_eq : StableHlo.after (hostOps2 (F := Ideal)) W (B main_v274) = rootW (W (B main_arg4)) 2 := by
  after_results_simp
  exact rootRead (W (B main_arg4)) 2 _ _

set_option maxHeartbeats 4000000 in
/-- Relation 0's matrix of layer 2. -/
theorem w0_eq : StableHlo.after (hostOps2 (F := Ideal)) W (B main_v266) = relW (W (B main_arg3)) 2 0 := by
  after_results_simp
  exact relRead (W (B main_arg3)) 2 0 _ _

set_option maxHeartbeats 4000000 in
/-- Relation 1's matrix of layer 2. -/
theorem w1_eq : StableHlo.after (hostOps2 (F := Ideal)) W (B main_v268) = relW (W (B main_arg3)) 2 1 := by
  after_results_simp
  exact relRead (W (B main_arg3)) 2 1 _ _

set_option maxHeartbeats 4000000 in
/-- Relation 2's matrix of layer 2. -/
theorem w2_eq : StableHlo.after (hostOps2 (F := Ideal)) W (B main_v270) = relW (W (B main_arg3)) 2 2 := by
  after_results_simp
  exact relRead (W (B main_arg3)) 2 2 _ _

set_option maxHeartbeats 4000000 in
/-- Relation 3's matrix of layer 2. -/
theorem w3_eq : StableHlo.after (hostOps2 (F := Ideal)) W (B main_v272) = relW (W (B main_arg3)) 2 3 := by
  after_results_simp
  exact relRead (W (B main_arg3)) 2 3 _ _

set_option maxHeartbeats 4000000 in
/-- The bias row of layer 2. -/
theorem bias_eq : (fun j : Fin 128 => StableHlo.after (hostOps2 (F := Ideal)) W (B main_v277) (ix2 (0 : Fin 1) j))
    = biasW (W (B main_arg5)) 2 := by
  after_results_simp
  exact biasRead (W (B main_arg5)) 2 _ _ _

end Cert.Rgcn.Host2

end
-- ==== Proof.KernelValue.lean ====
/-
  The kernel's program from the launch memory to its result: three rounds of "host stretch, then the fused layer".
  Round l finds the previous round's output (the input features, for round 0) in the layer's input buffer and the
  edge list, the edge types and the stacked weights untouched; its host stretch leaves the four mean aggregates of
  that input and the layer's weight slices; its launch leaves the layer function of those.  So the result buffer
  ends at the three-layer network of the argument arrays.
-/
import proofs.«164069_j28346784153940_1_alg».proof.Proof.Gen.KernelIdeal.Frame
import proofs.«164069_j28346784153940_1_alg».proof.Proof.Region0
import proofs.«164069_j28346784153940_1_alg».proof.Proof.Region1
import proofs.«164069_j28346784153940_1_alg».proof.Proof.Region2
import proofs.«164069_j28346784153940_1_alg».proof.Proof.Host0
import proofs.«164069_j28346784153940_1_alg».proof.Proof.Host1
import proofs.«164069_j28346784153940_1_alg».proof.Proof.Host2

set_option maxRecDepth 16384

noncomputable section

namespace Cert.Rgcn.Kernel

open Idealize.ShloMosaic Idealize.ShloMosaic.ValueIdx Idealize.ShloMosaic.TcCoe Idealize.SL.Sem
open Cert.KernelIdeal Cert.KernelIdeal.Gen Cert.Rgcn

/-- A layer of the given pieces is the network's layer `l` once each piece is what the network's layer takes. -/
theorem step_of {relu : Bool} {l : Fin 3} {e : IVec S2x640000 32} {t : IVec S640000 32} {a3 : S3x4x128x128.Idx → EReal}
    {a4 : S3x128x128.Idx → EReal} {a5 : S3x128.Idx → EReal} {x x' m0 m1 m2 m3 : S100000x128.Idx → EReal}
    {rt w0 w1 w2 w3 : S128x128.Idx → EReal} {b : Fin 128 → EReal}
    (hx : x' = x) (h0 : m0 = mean 0#32 x e t) (h1 : m1 = mean 1#32 x e t) (h2 : m2 = mean 2#32 x e t)
    (h3 : m3 = mean 3#32 x e t) (hr : rt = rootW a4 l) (hw0 : w0 = relW a3 l 0) (hw1 : w1 = relW a3 l 1)
    (hw2 : w2 = relW a3 l 2) (hw3 : w3 = relW a3 l 3) (hb : b = biasW a5 l) :
    layer relu x' m0 m1 m2 m3 rt w0 w1 w2 w3 b = step relu l e t a3 a4 a5 x := by
  subst hx h0 h1 h2 h3 hr hw0 hw1 hw2 hw3 hb
  rfl

variable (m : (ℓ : Loc nD τ sig) → Buf (Elt Ideal) ℓ) (ρ : Dev nD → PrngReg)

local macro "B" r:term:max : term => `(Proc.devRef (τ := τ) .tc $r)

/-! ## The arrays no stretch and no launch writes, at every boundary -/

theorem W1_arg0 (c : Dev nD) : W1 m ρ c (B main_arg0) = m ((c : Thread nD τ).loc main_arg0) :=
  Host0.e_eq (W0 m ρ c)
theorem W2_arg0 (c : Dev nD) : W2 m ρ c (B main_arg0) = m ((c : Thread nD τ).loc main_arg0) :=
  (W2_of_ne m ρ c main_arg0 (by decide)).trans (W1_arg0 m ρ c)
theorem W3_arg0 (c : Dev nD) : W3 m ρ c (B main_arg0) = m ((c : Thread nD τ).loc main_arg0) :=
  (Host1.e_eq (W2 m ρ c)).trans (W2_arg0 m ρ c)
theorem W4_arg0 (c : Dev nD) : W4 m ρ c (B main_arg0) = m ((c : Thread nD τ).loc main_arg0) :=
  (W4_of_ne m ρ c main_arg0 (by decide)).trans (W3_arg0 m ρ c)
theorem W5_arg0 (c : Dev nD) : W5 m ρ c (B main_arg0) = m ((c : Thread nD τ).loc main_arg0) :=
  (Host2.e_eq (W4 m ρ c)).trans (W4_arg0 m ρ c)

theorem W1_arg1 (c : Dev nD) : W1 m ρ c (B main_arg1) = m ((c : Thread nD τ).loc main_arg1) :=
  Host0.t_eq (W0 m ρ c)
theorem W2_arg1 (c : Dev nD) : W2 m ρ c (B main_arg1) = m ((c : Thread nD τ).loc main_arg1) :=
  (W2_of_ne m ρ c main_arg1 (by decide)).trans (W1_arg1 m ρ c)
theorem W3_arg1 (c : Dev nD) : W3 m ρ c (B main_arg1) = m ((c : Thread nD τ).loc main_arg1) :=
  (Host1.t_eq (W2 m ρ c)).trans (W2_arg1 m ρ c)
theorem W4_arg1 (c : Dev nD) : W4 m ρ c (B main_arg1) = m ((c : Thread nD τ).loc main_arg1) :=
  (W4_of_ne m ρ c main_arg1 (by decide)).trans (W3_arg1 m ρ c)
theorem W5_arg1 (c : Dev nD) : W5 m ρ c (B main_arg1) = m ((c : Thread nD τ).loc main_arg1) :=
  (Host2.t_eq (W4 m ρ c)).trans (W4_arg1 m ρ c)

theorem W1_arg3 (c : Dev nD) : W1 m ρ c (B main_arg3) = m ((c : Thread nD τ).loc main_arg3) :=
  Host0.a3_eq (W0 m ρ c)
theorem W2_arg3 (c : Dev nD) : W2 m ρ c (B main_arg3) = m ((c : Thread nD τ).loc main_arg3) :=
  (W2_of_ne m ρ c main_arg3 (by decide)).trans (W1_arg3 m ρ c)
theorem W3_arg3 (c : Dev nD) : W3 m ρ c (B main_arg3) = m ((c : Thread nD τ).loc main_arg3) :=
  (Host1.a3_eq (W2 m ρ c)).trans (W2_arg3 m ρ c)
theorem W4_arg3 (c : Dev nD) : W4 m ρ c (B main_arg3) = m ((c : Thread nD τ).loc main_arg3) :=
  (W4_of_ne m ρ c main_arg3 (by decide)).trans (W3_arg3 m ρ c)
theorem W5_arg3 (c : Dev nD) : W5 m ρ c (B main_arg3) = m ((c : Thread nD τ).loc main_arg3) :=
  (Host2.a3_eq (W4 m ρ c)).trans (W4_arg3 m ρ c)

theorem W1_arg4 (c : Dev nD) : W1 m ρ c (B main_arg4) = m ((c : Thread nD τ).loc main_arg4) :=
  Host0.a4_eq (W0 m ρ c)
theorem W2_arg4 (c : Dev nD) : W2 m ρ c (B main_arg4) = m ((c : Thread nD τ).loc main_arg4) :=
  (W2_of_ne m ρ c main_arg4 (by decide)).trans (W1_arg4 m ρ c)
theorem W3_arg4 (c : Dev nD) : W3 m ρ c (B main_arg4) = m ((c : Thread nD τ).loc main_arg4) :=
  (Host1.a4_eq (W2 m ρ c)).trans (W2_arg4 m ρ c)
theorem W4_arg4 (c : Dev nD) : W4 m ρ c (B main_arg4) = m ((c : Thread nD τ).loc main_arg4) :=
  (W4_of_ne m ρ c main_arg4 (by decide)).trans (W3_arg4 m ρ c)
theorem W5_arg4 (c : Dev nD) : W5 m ρ c (B main_arg4) = m ((c : Thread nD τ).loc main_arg4) :=
  (Host2.a4_eq (W4 m ρ c)).trans (W4_arg4 m ρ c)

theorem W1_arg5 (c : Dev nD) : W1 m ρ c (B main_arg5) = m ((c : Thread nD τ).loc main_arg5) :=
  Host0.a5_eq (W0 m ρ c)
theorem W2_arg5 (c : Dev nD) : W2 m ρ c (B main_arg5) = m ((c : Thread nD τ).loc main_arg5) :=
  (W2_of_ne m ρ c main_arg5 (by decide)).trans (W1_arg5 m ρ c)
theorem W3_arg5 (c : Dev nD) : W3 m ρ c (B main_arg5) = m ((c : Thread nD τ).loc main_arg5) :=
  (Host1.a5_eq (W2 m ρ c)).trans (W2_arg5 m ρ c)
theorem W4_arg5 (c : Dev nD) : W4 m ρ c (B main_arg5) = m ((c : Thread nD τ).loc main_arg5) :=
  (W4_of_ne m ρ c main_arg5 (by decide)).trans (W3_arg5 m ρ c)
theorem W5_arg5 (c : Dev nD) : W5 m ρ c (B main_arg5) = m ((c : Thread nD τ).loc main_arg5) :=
  (Host2.a5_eq (W4 m ρ c)).trans (W4_arg5 m ρ c)

/-! ## The three rounds -/

/-- Round 0: the layer's output buffer after the launch. -/
theorem out0 (c : Dev nD) : W2 m ρ c (B main_v92) = (step true 0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg2))) := by
  refine (W2_arr m ρ c 11).trans ?_
  refine (Region0.value (V1 m ρ) c).trans ?_
  exact step_of (e := (m ((c : Thread nD τ).loc main_arg0))) (t := (m ((c : Thread nD τ).loc main_arg1))) (a3 := (m ((c : Thread nD τ).loc main_arg3))) (a4 := (m ((c : Thread nD τ).loc main_arg4))) (a5 := (m ((c : Thread nD τ).loc main_arg5))) (x := (m ((c : Thread nD τ).loc main_arg2)))
    (Host0.x_eq (W0 m ρ c))
    (Host0.mean0_eq (W0 m ρ c))
    (Host0.mean1_eq (W0 m ρ c))
    (Host0.mean2_eq (W0 m ρ c))
    (Host0.mean3_eq (W0 m ρ c))
    (Host0.root_eq (W0 m ρ c))
    (Host0.w0_eq (W0 m ρ c))
    (Host0.w1_eq (W0 m ρ c))
    (Host0.w2_eq (W0 m ρ c))
    (Host0.w3_eq (W0 m ρ c))
    (Host0.bias_eq (W0 m ρ c))

/-- Round 1: the layer's output buffer after the launch. -/
theorem out1 (c : Dev nD) : W4 m ρ c (B main_v185) = (step true 1 (m ((c : Thread nD τ).loc main_arg0)) (m ((c : Thread nD τ).loc main_arg1)) (m ((c : Thread nD τ).loc main_arg3)) (m ((c : Thread nD τ).loc main_arg4)) (m ((c : Thread nD τ).loc main_arg5)) (step true 0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg2)))) := by
  refine (W4_arr m ρ c 11).trans ?_
  refine (Region1.value (V3 m ρ) c).trans ?_
  exact step_of (e := (m ((c : Thread nD τ).loc main_arg0))) (t := (m ((c : Thread nD τ).loc main_arg1))) (a3 := (m ((c : Thread nD τ).loc main_arg3))) (a4 := (m ((c : Thread nD τ).loc main_arg4))) (a5 := (m ((c : Thread nD τ).loc main_arg5))) (x := (step true 0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg2))))
    ((Host1.x_eq (W2 m ρ c)).trans (out0 m ρ c))
    ((Host1.mean0_eq (W2 m ρ c)).trans (by rw [out0 m ρ c, W2_arg0 m ρ c, W2_arg1 m ρ c]))
    ((Host1.mean1_eq (W2 m ρ c)).trans (by rw [out0 m ρ c, W2_arg0 m ρ c, W2_arg1 m ρ c]))
    ((Host1.mean2_eq (W2 m ρ c)).trans (by rw [out0 m ρ c, W2_arg0 m ρ c, W2_arg1 m ρ c]))
    ((Host1.mean3_eq (W2 m ρ c)).trans (by rw [out0 m ρ c, W2_arg0 m ρ c, W2_arg1 m ρ c]))
    ((Host1.root_eq (W2 m ρ c)).trans (by rw [W2_arg4 m ρ c]))
    ((Host1.w0_eq (W2 m ρ c)).trans (by rw [W2_arg3 m ρ c]))
    ((Host1.w1_eq (W2 m ρ c)).trans (by rw [W2_arg3 m ρ c]))
    ((Host1.w2_eq (W2 m ρ c)).trans (by rw [W2_arg3 m ρ c]))
    ((Host1.w3_eq (W2 m ρ c)).trans (by rw [W2_arg3 m ρ c]))
    ((Host1.bias_eq (W2 m ρ c)).trans (by rw [W2_arg5 m ρ c]))

/-- Round 2: the layer's output buffer after the launch. -/
theorem out2 (c : Dev nD) : W6 m ρ c (B main_v278) = (step false 2 (m ((c : Thread nD τ).loc main_arg0)) (m ((c : Thread nD τ).loc main_arg1)) (m ((c : Thread nD τ).loc main_arg3)) (m ((c : Thread nD τ).loc main_arg4)) (m ((c : Thread nD τ).loc main_arg5)) (step true 1 (m ((c : Thread nD τ).loc main_arg0)) (m ((c : Thread nD τ).loc main_arg1)) (m ((c : Thread nD τ).loc main_arg3)) (m ((c : Thread nD τ).loc main_arg4)) (m ((c : Thread nD τ).loc main_arg5)) (step true 0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg2))))) := by
  refine (W6_arr m ρ c 11).trans ?_
  refine (Region2.value (V5 m ρ) c).trans ?_
  exact step_of (e := (m ((c : Thread nD τ).loc main_arg0))) (t := (m ((c : Thread nD τ).loc main_arg1))) (a3 := (m ((c : Thread nD τ).loc main_arg3))) (a4 := (m ((c : Thread nD τ).loc main_arg4))) (a5 := (m ((c : Thread nD τ).loc main_arg5))) (x := (step true 1 (m ((c : Thread nD τ).loc main_arg0)) (m ((c : Thread nD τ).loc main_arg1)) (m ((c : Thread nD τ).loc main_arg3)) (m ((c : Thread nD τ).loc main_arg4)) (m ((c : Thread nD τ).loc main_arg5)) (step true 0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg2)))))
    ((Host2.x_eq (W4 m ρ c)).trans (out1 m ρ c))
    ((Host2.mean0_eq (W4 m ρ c)).trans (by rw [out1 m ρ c, W4_arg0 m ρ c, W4_arg1 m ρ c]))
    ((Host2.mean1_eq (W4 m ρ c)).trans (by rw [out1 m ρ c, W4_arg0 m ρ c, W4_arg1 m ρ c]))
    ((Host2.mean2_eq (W4 m ρ c)).trans (by rw [out1 m ρ c, W4_arg0 m ρ c, W4_arg1 m ρ c]))
    ((Host2.mean3_eq (W4 m ρ c)).trans (by rw [out1 m ρ c, W4_arg0 m ρ c, W4_arg1 m ρ c]))
    ((Host2.root_eq (W4 m ρ c)).trans (by rw [W4_arg4 m ρ c]))
    ((Host2.w0_eq (W4 m ρ c)).trans (by rw [W4_arg3 m ρ c]))
    ((Host2.w1_eq (W4 m ρ c)).trans (by rw [W4_arg3 m ρ c]))
    ((Host2.w2_eq (W4 m ρ c)).trans (by rw [W4_arg3 m ρ c]))
    ((Host2.w3_eq (W4 m ρ c)).trans (by rw [W4_arg3 m ρ c]))
    ((Host2.bias_eq (W4 m ρ c)).trans (by rw [W4_arg5 m ρ c]))

/-- The result buffer after the whole program: the network of the argument arrays. -/
theorem result (c : Dev nD) : W6 m ρ c (B main_v278)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  out2 m ρ c

end Cert.Rgcn.Kernel

end
-- ==== Proof.RefSpec.lean ====
/-
  The reference's three layers as composed host operations, spelt as the reference program spells them.

  `rmean r x e t` is the mean aggregate of relation `r` (gather the source rows, mask by the edge type, sum by
  destination, divide by the clamped count); `refL0`, `refL1`, `refL2` are the three layers: the product of the
  features with the layer's root matrix plus the bias row, plus, relation by relation, the product of the mean
  aggregate with the relation's matrix (sliced out of the layer's [4, 128, 128] stack); the first two clamped below
  at 0.  Nothing is proved here: the functions are named so that the program's run and the index-by-index
  mathematics can each be stated against them.
-/
import proofs.«164069_j28346784153940_1_alg».proof.ReferenceIdeal
import Idealize.ShloMosaic.PureOps.Ideal

noncomputable section

namespace Cert.Rgcn.Ref

open Idealize.ShloMosaic Cert.ReferenceIdeal Cert.ReferenceIdeal.Facts₀

variable [Cert.ReferenceIdeal.Facts₀]

/-- The mean over the edges of relation `r` into each node of the source features. -/
def rmean (r : BitVec 32) (x : FVec Ideal S100000x128 .f32) (e : IVec S2x640000 32) (t : IVec S640000 32) : FVec Ideal S100000x128 .f32 :=
  (Host.divf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 (shapeCast _ (extractStridedSlice S1x640000 ![1, 0] e slices_S2x640000_S1x640000_1_0) shapeCasts_S1x640000_S640000)) (mulf (Host.gather gather_S100000x128_S640000x1_S640000x128_1_0_n_n_0_1_1128 x (broadcastInDim S640000x1 ![0] bcast_S640000_S640000x1_0 (select (cmpi .slt (shapeCast _ (extractStridedSlice S1x640000 ![0, 0] e slices_S2x640000_S1x640000_0_0) shapeCasts_S1x640000_S640000) (broadcastInDim S640000 ![] bcast_S_S640000 (constantI S_ 32 0#32))) (addi (shapeCast _ (extractStridedSlice S1x640000 ![0, 0] e slices_S2x640000_S1x640000_0_0) shapeCasts_S1x640000_S640000) (broadcastInDim S640000 ![] bcast_S_S640000 (constantI S_ 32 100000#32))) (shapeCast _ (extractStridedSlice S1x640000 ![0, 0] e slices_S2x640000_S1x640000_0_0) shapeCasts_S1x640000_S640000)))) (broadcastInDim S640000x128 ![0, 1] bcast_S640000x1_S640000x128_0_1 (broadcastInDim S640000x1 ![0] bcast_S640000_S640000x1_0 (uitofp .f32 (cmpi .eq t (broadcastInDim S640000 ![] bcast_S_S640000 (constantI S_ 32 r)))))))) (broadcastInDim S100000x128 ![0, 1] bcast_S100000x1_S100000x128_0_1 (broadcastInDim S100000x1 ![0] bcast_S100000_S100000x1_0 (maximumf (Host.scatterAdd (F := Ideal) scatter_S100000_S640000x1_S640000_n_0_0_1 (broadcastInDim S100000 ![] bcast_S_S100000 (constant (F := Ideal) S_ .f32 0x00000000#32)) (broadcastInDim S640000x1 ![0] bcast_S640000_S640000x1_0 (shapeCast _ (extractStridedSlice S1x640000 ![1, 0] e slices_S2x640000_S1x640000_1_0) shapeCasts_S1x640000_S640000)) (uitofp .f32 (cmpi .eq t (broadcastInDim S640000 ![] bcast_S_S640000 (constantI S_ 32 r))))) (broadcastInDim S100000 ![] bcast_S_S100000 (constant (F := Ideal) S_ .f32 0x3F800000#32))))))

/-- Layer 0 (clamped below at 0). -/
def refL0 (e : IVec S2x640000 32) (t : IVec S640000 32) (x : FVec Ideal S100000x128 .f32) (a3 : FVec Ideal S3x4x128x128 .f32)
    (a4 : FVec Ideal S3x128x128 .f32) (a5 : FVec Ideal S3x128 .f32) : FVec Ideal S100000x128 .f32 :=
  (maximumf (addf (addf (addf (addf (addf (Host.dotGeneral (F := Ideal) dot_S100000x128_S128x128_S100000x128_1_0_0_1_n_n none x (shapeCast _ (extractStridedSlice S1x128x128 ![0, 0, 0] a4 slices_S3x128x128_S1x128x128_0_0_0) shapeCasts_S1x128x128_S128x128)) (broadcastInDim S100000x128 ![0, 1] bcast_S1x128_S100000x128_0_1 (broadcastInDim S1x128 ![1] bcast_S128_S1x128_1 (shapeCast _ (extractStridedSlice S1x128 ![0, 0] a5 slices_S3x128_S1x128_0_0) shapeCasts_S1x128_S128)))) (Host.dotGeneral (F := Ideal) dot_S100000x128_S128x128_S100000x128_1_0_0_1_n_n none (rmean 0#32 x e t) (shapeCast _ (extractStridedSlice S1x128x128 ![0, 0, 0] (shapeCast _ (extractStridedSlice S1x4x128x128 ![0, 0, 0, 0] a3 slices_S3x4x128x128_S1x4x128x128_0_0_0_0) shapeCasts_S1x4x128x128_S4x128x128) slices_S4x128x128_S1x128x128_0_0_0) shapeCasts_S1x128x128_S128x128))) (Host.dotGeneral (F := Ideal) dot_S100000x128_S128x128_S100000x128_1_0_0_1_n_n none (rmean 1#32 x e t) (shapeCast _ (extractStridedSlice S1x128x128 ![1, 0, 0] (shapeCast _ (extractStridedSlice S1x4x128x128 ![0, 0, 0, 0] a3 slices_S3x4x128x128_S1x4x128x128_0_0_0_0) shapeCasts_S1x4x128x128_S4x128x128) slices_S4x128x128_S1x128x128_1_0_0) shapeCasts_S1x128x128_S128x128))) (Host.dotGeneral (F := Ideal) dot_S100000x128_S128x128_S100000x128_1_0_0_1_n_n none (rmean 2#32 x e t) (shapeCast _ (extractStridedSlice S1x128x128 ![2, 0, 0] (shapeCast _ (extractStridedSlice S1x4x128x128 ![0, 0, 0, 0] a3 slices_S3x4x128x128_S1x4x128x128_0_0_0_0) shapeCasts_S1x4x128x128_S4x128x128) slices_S4x128x128_S1x128x128_2_0_0) shapeCasts_S1x128x128_S128x128))) (Host.dotGeneral (F := Ideal) dot_S100000x128_S128x128_S100000x128_1_0_0_1_n_n none (rmean 3#32 x e t) (shapeCast _ (extractStridedSlice S1x128x128 ![3, 0, 0] (shapeCast _ (extractStridedSlice S1x4x128x128 ![0, 0, 0, 0] a3 slices_S3x4x128x128_S1x4x128x128_0_0_0_0) shapeCasts_S1x4x128x128_S4x128x128) slices_S4x128x128_S1x128x128_3_0_0) shapeCasts_S1x128x128_S128x128))) (broadcastInDim S100000x128 ![] bcast_S_S100000x128 (constant (F := Ideal) S_ .f32 0x00000000#32)))

/-- Layer 1 (clamped below at 0). -/
def refL1 (e : IVec S2x640000 32) (t : IVec S640000 32) (x : FVec Ideal S100000x128 .f32) (a3 : FVec Ideal S3x4x128x128 .f32)
    (a4 : FVec Ideal S3x128x128 .f32) (a5 : FVec Ideal S3x128 .f32) : FVec Ideal S100000x128 .f32 :=
  (maximumf (addf (addf (addf (addf (addf (Host.dotGeneral (F := Ideal) dot_S100000x128_S128x128_S100000x128_1_0_0_1_n_n none x (shapeCast _ (extractStridedSlice S1x128x128 ![1, 0, 0] a4 slices_S3x128x128_S1x128x128_1_0_0) shapeCasts_S1x128x128_S128x128)) (broadcastInDim S100000x128 ![0, 1] bcast_S1x128_S100000x128_0_1 (broadcastInDim S1x128 ![1] bcast_S128_S1x128_1 (shapeCast _ (extractStridedSlice S1x128 ![1, 0] a5 slices_S3x128_S1x128_1_0) shapeCasts_S1x128_S128)))) (Host.dotGeneral (F := Ideal) dot_S100000x128_S128x128_S100000x128_1_0_0_1_n_n none (rmean 0#32 x e t) (shapeCast _ (extractStridedSlice S1x128x128 ![0, 0, 0] (shapeCast _ (extractStridedSlice S1x4x128x128 ![1, 0, 0, 0] a3 slices_S3x4x128x128_S1x4x128x128_1_0_0_0) shapeCasts_S1x4x128x128_S4x128x128) slices_S4x128x128_S1x128x128_0_0_0) shapeCasts_S1x128x128_S128x128))) (Host.dotGeneral (F := Ideal) dot_S100000x128_S128x128_S100000x128_1_0_0_1_n_n none (rmean 1#32 x e t) (shapeCast _ (extractStridedSlice S1x128x128 ![1, 0, 0] (shapeCast _ (extractStridedSlice S1x4x128x128 ![1, 0, 0, 0] a3 slices_S3x4x128x128_S1x4x128x128_1_0_0_0) shapeCasts_S1x4x128x128_S4x128x128) slices_S4x128x128_S1x128x128_1_0_0) shapeCasts_S1x128x128_S128x128))) (Host.dotGeneral (F := Ideal) dot_S100000x128_S128x128_S100000x128_1_0_0_1_n_n none (rmean 2#32 x e t) (shapeCast _ (extractStridedSlice S1x128x128 ![2, 0, 0] (shapeCast _ (extractStridedSlice S1x4x128x128 ![1, 0, 0, 0] a3 slices_S3x4x128x128_S1x4x128x128_1_0_0_0) shapeCasts_S1x4x128x128_S4x128x128) slices_S4x128x128_S1x128x128_2_0_0) shapeCasts_S1x128x128_S128x128))) (Host.dotGeneral (F := Ideal) dot_S100000x128_S128x128_S100000x128_1_0_0_1_n_n none (rmean 3#32 x e t) (shapeCast _ (extractStridedSlice S1x128x128 ![3, 0, 0] (shapeCast _ (extractStridedSlice S1x4x128x128 ![1, 0, 0, 0] a3 slices_S3x4x128x128_S1x4x128x128_1_0_0_0) shapeCasts_S1x4x128x128_S4x128x128) slices_S4x128x128_S1x128x128_3_0_0) shapeCasts_S1x128x128_S128x128))) (broadcastInDim S100000x128 ![] bcast_S_S100000x128 (constant (F := Ideal) S_ .f32 0x00000000#32)))

/-- Layer 2 (not clamped). -/
def refL2 (e : IVec S2x640000 32) (t : IVec S640000 32) (x : FVec Ideal S100000x128 .f32) (a3 : FVec Ideal S3x4x128x128 .f32)
    (a4 : FVec Ideal S3x128x128 .f32) (a5 : FVec Ideal S3x128 .f32) : FVec Ideal S100000x128 .f32 :=
  (addf (addf (addf (addf (addf (Host.dotGeneral (F := Ideal) dot_S100000x128_S128x128_S100000x128_1_0_0_1_n_n none x (shapeCast _ (extractStridedSlice S1x128x128 ![2, 0, 0] a4 slices_S3x128x128_S1x128x128_2_0_0) shapeCasts_S1x128x128_S128x128)) (broadcastInDim S100000x128 ![0, 1] bcast_S1x128_S100000x128_0_1 (broadcastInDim S1x128 ![1] bcast_S128_S1x128_1 (shapeCast _ (extractStridedSlice S1x128 ![2, 0] a5 slices_S3x128_S1x128_2_0) shapeCasts_S1x128_S128)))) (Host.dotGeneral (F := Ideal) dot_S100000x128_S128x128_S100000x128_1_0_0_1_n_n none (rmean 0#32 x e t) (shapeCast _ (extractStridedSlice S1x128x128 ![0, 0, 0] (shapeCast _ (extractStridedSlice S1x4x128x128 ![2, 0, 0, 0] a3 slices_S3x4x128x128_S1x4x128x128_2_0_0_0) shapeCasts_S1x4x128x128_S4x128x128) slices_S4x128x128_S1x128x128_0_0_0) shapeCasts_S1x128x128_S128x128))) (Host.dotGeneral (F := Ideal) dot_S100000x128_S128x128_S100000x128_1_0_0_1_n_n none (rmean 1#32 x e t) (shapeCast _ (extractStridedSlice S1x128x128 ![1, 0, 0] (shapeCast _ (extractStridedSlice S1x4x128x128 ![2, 0, 0, 0] a3 slices_S3x4x128x128_S1x4x128x128_2_0_0_0) shapeCasts_S1x4x128x128_S4x128x128) slices_S4x128x128_S1x128x128_1_0_0) shapeCasts_S1x128x128_S128x128))) (Host.dotGeneral (F := Ideal) dot_S100000x128_S128x128_S100000x128_1_0_0_1_n_n none (rmean 2#32 x e t) (shapeCast _ (extractStridedSlice S1x128x128 ![2, 0, 0] (shapeCast _ (extractStridedSlice S1x4x128x128 ![2, 0, 0, 0] a3 slices_S3x4x128x128_S1x4x128x128_2_0_0_0) shapeCasts_S1x4x128x128_S4x128x128) slices_S4x128x128_S1x128x128_2_0_0) shapeCasts_S1x128x128_S128x128))) (Host.dotGeneral (F := Ideal) dot_S100000x128_S128x128_S100000x128_1_0_0_1_n_n none (rmean 3#32 x e t) (shapeCast _ (extractStridedSlice S1x128x128 ![3, 0, 0] (shapeCast _ (extractStridedSlice S1x4x128x128 ![2, 0, 0, 0] a3 slices_S3x4x128x128_S1x4x128x128_2_0_0_0) shapeCasts_S1x4x128x128_S4x128x128) slices_S4x128x128_S1x128x128_3_0_0) shapeCasts_S1x128x128_S128x128)))

/-- The reference network. -/
def refNet (e : IVec S2x640000 32) (t : IVec S640000 32) (x : FVec Ideal S100000x128 .f32) (a3 : FVec Ideal S3x4x128x128 .f32)
    (a4 : FVec Ideal S3x128x128 .f32) (a5 : FVec Ideal S3x128 .f32) : FVec Ideal S100000x128 .f32 :=
  refL2 e t (refL1 e t (refL0 e t x a3 a4 a5) a3 a4 a5) a3 a4 a5

end Cert.Rgcn.Ref

end
-- ==== Proof.RefStretch.lean ====
/-
  The reference program's run, read one layer at a time.

  The reference is one line of 375 host operations.  Its contents after the line are a fold of the operations'
  results over the launch contents; read at the result buffer in one piece, that fold is the three layers nested,
  the first layer's term repeated wherever the second reads its input and the second's wherever the third does.
  Here the line is cut where a layer ends (after the first clamp, after the second), each stretch is read from ANY
  contents `W` at its entry — it leaves its layer (`refL0`, `refL1`, `refL2`) of the buffers it starts from in its
  last buffer and writes none of the argument arrays —, and the three readings are composed: the result buffer ends
  at `refNet` of the argument arrays as launched.
-/
import proofs.«164069_j28346784153940_1_alg».proof.Proof.RefOps
import proofs.«164069_j28346784153940_1_alg».proof.Proof.RefSpec
import Idealize.ShloMosaic.Lib.StableHlo.Run

set_option maxRecDepth 16384

noncomputable section

namespace Cert.Rgcn.RefRun

open Idealize.ShloMosaic Idealize.ShloMosaic.TcCoe Idealize.SL.Sem Idealize.ShloMosaic.StableHlo

/-! ## A line of operations read in stretches -/

section Fold
variable {τ : Topo} {sig : RefSig} {Val : EltTy → Type}

/-- The contents after two lines run one after the other: the second line's from the first's. -/
theorem after_append (l₁ l₂ : List (HloOp τ sig Val)) (V : Valuation τ sig Val) :
    after (l₁ ++ l₂) V = after l₂ (after l₁ V) := by
  induction l₁ generalizing V with
  | nil => rfl
  | cons op l ih =>
    simp only [List.cons_append, after_cons]
    exact ih _

end Fold

open Cert.ReferenceIdeal Cert.ReferenceIdeal.Gen Cert.ReferenceIdeal.Value Cert.Rgcn.Ref

/-! ## The reference's operations in three stretches, one per layer -/

/-- Layer 0's operations: up to the first clamp. -/
def S0 : List (HloOp τ sig (Elt Ideal)) := (ops (F := Ideal)).take 126
/-- Layer 1's operations: up to the second clamp. -/
def S1 : List (HloOp τ sig (Elt Ideal)) := ((ops (F := Ideal)).drop 126).take 126
/-- Layer 2's operations: the rest. -/
def S2 : List (HloOp τ sig (Elt Ideal)) := ((ops (F := Ideal)).drop 126).drop 126

theorem ops_eq : ops (F := Ideal) = S0 ++ (S1 ++ S2) := by
  unfold S0 S1 S2
  rw [List.take_append_drop, List.take_append_drop]

variable (W : Valuation τ sig (Elt Ideal))

local macro "B" r:term:max : term => `(Proc.devRef (τ := τ) .tc $r)

set_option maxHeartbeats 4000000 in
theorem s0_out : after S0 W (B main_v105)
    = refL0 (W (B main_arg0)) (W (B main_arg1)) (W (B main_arg2)) (W (B main_arg3)) (W (B main_arg4)) (W (B main_arg5)) := by
  unfold S0
  simp only [ops, List.take_succ_cons, List.take_zero]
  after_results_simp
  unfold refL0 rmean
  rfl

set_option maxHeartbeats 4000000 in
theorem s0_arg0 : after S0 W (B main_arg0) = W (B main_arg0) := by
  unfold S0
  simp only [ops, List.take_succ_cons, List.take_zero]
  after_results_simp

set_option maxHeartbeats 4000000 in
theorem s0_arg1 : after S0 W (B main_arg1) = W (B main_arg1) := by
  unfold S0
  simp only [ops, List.take_succ_cons, List.take_zero]
  after_results_simp

set_option maxHeartbeats 4000000 in
theorem s0_arg2 : after S0 W (B main_arg2) = W (B main_arg2) := by
  unfold S0
  simp only [ops, List.take_succ_cons, List.take_zero]
  after_results_simp

set_option maxHeartbeats 4000000 in
theorem s0_arg3 : after S0 W (B main_arg3) = W (B main_arg3) := by
  unfold S0
  simp only [ops, List.take_succ_cons, List.take_zero]
  after_results_simp

set_option maxHeartbeats 4000000 in
theorem s0_arg4 : after S0 W (B main_arg4) = W (B main_arg4) := by
  unfold S0
  simp only [ops, List.take_succ_cons, List.take_zero]
  after_results_simp

set_option maxHeartbeats 4000000 in
theorem s0_arg5 : after S0 W (B main_arg5) = W (B main_arg5) := by
  unfold S0
  simp only [ops, List.take_succ_cons, List.take_zero]
  after_results_simp

set_option maxHeartbeats 4000000 in
theorem s1_out : after S1 W (B main_v211)
    = refL1 (W (B main_arg0)) (W (B main_arg1)) (W (B main_v105)) (W (B main_arg3)) (W (B main_arg4)) (W (B main_arg5)) := by
  unfold S1
  simp only [ops, List.drop_succ_cons, List.drop_zero, List.take_succ_cons, List.take_zero]
  after_results_simp
  unfold refL1 rmean
  rfl

set_option maxHeartbeats 4000000 in
theorem s1_arg0 : after S1 W (B main_arg0) = W (B main_arg0) := by
  unfold S1
  simp only [ops, List.drop_succ_cons, List.drop_zero, List.take_succ_cons, List.take_zero]
  after_results_simp

set_option maxHeartbeats 4000000 in
theorem s1_arg1 : after S1 W (B main_arg1) = W (B main_arg1) := by
  unfold S1
  simp only [ops, List.drop_succ_cons, List.drop_zero, List.take_succ_cons, List.take_zero]
  after_results_simp

set_option maxHeartbeats 4000000 in
theorem s1_arg2 : after S1 W (B main_arg2) = W (B main_arg2) := by
  unfold S1
  simp only [ops, List.drop_succ_cons, List.drop_zero, List.take_succ_cons, List.take_zero]
  after_results_simp

set_option maxHeartbeats 4000000 in
theorem s1_arg3 : after S1 W (B main_arg3) = W (B main_arg3) := by
  unfold S1
  simp only [ops, List.drop_succ_cons, List.drop_zero, List.take_succ_cons, List.take_zero]
  after_results_simp

set_option maxHeartbeats 4000000 in
theorem s1_arg4 : after S1 W (B main_arg4) = W (B main_arg4) := by
  unfold S1
  simp only [ops, List.drop_succ_cons, List.drop_zero, List.take_succ_cons, List.take_zero]
  after_results_simp

set_option maxHeartbeats 4000000 in
theorem s1_arg5 : after S1 W (B main_arg5) = W (B main_arg5) := by
  unfold S1
  simp only [ops, List.drop_succ_cons, List.drop_zero, List.take_succ_cons, List.take_zero]
  after_results_simp

set_option maxHeartbeats 4000000 in
theorem s2_out : after S2 W (B main_v316)
    = refL2 (W (B main_arg0)) (W (B main_arg1)) (W (B main_v211)) (W (B main_arg3)) (W (B main_arg4)) (W (B main_arg5)) := by
  unfold S2
  simp only [ops, List.drop_succ_cons, List.drop_zero]
  after_results_simp
  unfold refL2 rmean
  rfl

set_option maxHeartbeats 4000000 in
theorem s2_arg0 : after S2 W (B main_arg0) = W (B main_arg0) := by
  unfold S2
  simp only [ops, List.drop_succ_cons, List.drop_zero]
  after_results_simp

set_option maxHeartbeats 4000000 in
theorem s2_arg1 : after S2 W (B main_arg1) = W (B main_arg1) := by
  unfold S2
  simp only [ops, List.drop_succ_cons, List.drop_zero]
  after_results_simp

set_option maxHeartbeats 4000000 in
theorem s2_arg2 : after S2 W (B main_arg2) = W (B main_arg2) := by
  unfold S2
  simp only [ops, List.drop_succ_cons, List.drop_zero]
  after_results_simp

set_option maxHeartbeats 4000000 in
theorem s2_arg3 : after S2 W (B main_arg3) = W (B main_arg3) := by
  unfold S2
  simp only [ops, List.drop_succ_cons, List.drop_zero]
  after_results_simp

set_option maxHeartbeats 4000000 in
theorem s2_arg4 : after S2 W (B main_arg4) = W (B main_arg4) := by
  unfold S2
  simp only [ops, List.drop_succ_cons, List.drop_zero]
  after_results_simp

set_option maxHeartbeats 4000000 in
theorem s2_arg5 : after S2 W (B main_arg5) = W (B main_arg5) := by
  unfold S2
  simp only [ops, List.drop_succ_cons, List.drop_zero]
  after_results_simp

/-! ## The three stretches composed -/

/-- The whole line from contents `W`: layer 2's stretch from what layer 1's leaves from what layer 0's leaves. -/
theorem after_ops : after (ops (F := Ideal)) W = after S2 (after S1 (after S0 W)) := by
  rw [ops_eq, after_append, after_append]

/-- The result buffer after the whole line is the reference network of the argument arrays. -/
theorem out_eq : after (ops (F := Ideal)) W (B main_v316)
    = refNet (W (B main_arg0)) (W (B main_arg1)) (W (B main_arg2)) (W (B main_arg3)) (W (B main_arg4)) (W (B main_arg5)) := by
  rw [after_ops, s2_out, s1_out, s0_out,
    s1_arg0, s1_arg1, s1_arg3, s1_arg4, s1_arg5, s0_arg0, s0_arg1, s0_arg3, s0_arg4, s0_arg5]
  rfl

/-- No operation writes argument 0. -/
theorem arg0_eq : after (ops (F := Ideal)) W (B main_arg0) = W (B main_arg0) := by
  rw [after_ops, s2_arg0, s1_arg0, s0_arg0]
/-- No operation writes argument 1. -/
theorem arg1_eq : after (ops (F := Ideal)) W (B main_arg1) = W (B main_arg1) := by
  rw [after_ops, s2_arg1, s1_arg1, s0_arg1]
/-- No operation writes argument 2. -/
theorem arg2_eq : after (ops (F := Ideal)) W (B main_arg2) = W (B main_arg2) := by
  rw [after_ops, s2_arg2, s1_arg2, s0_arg2]
/-- No operation writes argument 3. -/
theorem arg3_eq : after (ops (F := Ideal)) W (B main_arg3) = W (B main_arg3) := by
  rw [after_ops, s2_arg3, s1_arg3, s0_arg3]
/-- No operation writes argument 4. -/
theorem arg4_eq : after (ops (F := Ideal)) W (B main_arg4) = W (B main_arg4) := by
  rw [after_ops, s2_arg4, s1_arg4, s0_arg4]
/-- No operation writes argument 5. -/
theorem arg5_eq : after (ops (F := Ideal)) W (B main_arg5) = W (B main_arg5) := by
  rw [after_ops, s2_arg5, s1_arg5, s0_arg5]

/-! ## The reference's run -/

/-- Every weakly fair execution of the reference from any memory with zero counters terminates with the result
    buffer at the reference network of the argument arrays as launched, and the argument arrays as launched. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v316)
        = Cert.Rgcn.Ref.refNet (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run _ _ _).mono (fun r h c =>
    ⟨(h c main_v316).trans (out_eq (launchContents m c)),
     (h c main_arg0).trans (arg0_eq (launchContents m c)),
     (h c main_arg1).trans (arg1_eq (launchContents m c)),
     (h c main_arg2).trans (arg2_eq (launchContents m c)),
     (h c main_arg3).trans (arg3_eq (launchContents m c)),
     (h c main_arg4).trans (arg4_eq (launchContents m c)),
     (h c main_arg5).trans (arg5_eq (launchContents m c))⟩)
    (run_after (F := Ideal) m ρ)

end Cert.Rgcn.RefRun

end
-- ==== Proof.RefMath.lean ====
/-
  The reference's three layers read index by index: each layer of composed host operations is the layer of the
  mathematics (the bias, plus the features against the root matrix, plus each relation's mean aggregate against that
  relation's matrix, clamped below at 0 on the two inner layers), and so the reference network is the network.

  The pieces: a stack of arrays cut to one member along its leading axis and the unit axis dropped reads the member's
  entry; a matrix product reads as a sum over the contracted coordinate; a bias row laid along every row reads the
  bias entry; the mean aggregate is the same chain of host operations on both sides and is never opened.  The only
  arithmetic is one commutation of a sum of two extended reals (the reference adds the bias after the root product,
  the mathematics before).
-/
import proofs.«164069_j28346784153940_1_alg».proof.Proof.Spec
import proofs.«164069_j28346784153940_1_alg».proof.Proof.RefSpec
import proofs.«164069_j28346784153940_1_alg».proof.Proof.LibDense
import Idealize.ShloMosaic.Lib.ValueLayout

open scoped BigOperators

noncomputable section

namespace Cert.Rgcn.RefMath

open Idealize.ShloMosaic Idealize.ShloMosaic.ValueIdx

/-! ## A stack cut to one member -/

section Stack
variable {α : Type}

/-- A stack of rows cut to row `l` (a slice of one row) and the unit axis dropped reads, at `i`, the stack at
    `(l, i)`. -/
theorem stack2_apply {n a : Nat} (l : Nat) (X : (⟨2, ![n, a]⟩ : Shape).Idx → α)
    (h : (⟨2, ![n, a]⟩ : Shape).Slices ![l, 0] ⟨2, ![1, a]⟩)
    (hc : (⟨2, ![1, a]⟩ : Shape).ShapeCasts ⟨1, ![a]⟩) (k : Fin n) (hk : k.val = l) (i : Fin a) :
    shapeCast ⟨1, ![a]⟩ (extractStridedSlice ⟨2, ![1, a]⟩ ![l, 0] X h) hc (ix1 i) = X (ix2 k i) :=
  (shapeCast_1a_a_apply _ hc i).trans
    (slice2_axis0_apply l X h (0 : Fin 1) i k (by rw [hk]; rfl))

/-- A stack of matrices cut to matrix `l` and the unit axis dropped reads, at `(i, j)`, the stack at `(l, i, j)`. -/
theorem stack3_apply {n a b : Nat} (l : Nat) (X : (⟨3, ![n, a, b]⟩ : Shape).Idx → α)
    (h : (⟨3, ![n, a, b]⟩ : Shape).Slices ![l, 0, 0] ⟨3, ![1, a, b]⟩)
    (hc : (⟨3, ![1, a, b]⟩ : Shape).ShapeCasts ⟨2, ![a, b]⟩) (k : Fin n) (hk : k.val = l) (i : Fin a) (j : Fin b) :
    shapeCast ⟨2, ![a, b]⟩ (extractStridedSlice ⟨3, ![1, a, b]⟩ ![l, 0, 0] X h) hc (ix2 i j) = X (ix3 k i j) :=
  (shapeCast_1ab_ab_apply _ hc i j).trans
    (extractStridedSlice_apply _ X h _ (ix3 k i j) (fun ax => by
      match ax with
      | ⟨0, _⟩ => rw [hk]; rfl
      | ⟨1, _⟩ => exact (Nat.zero_add _).symm
      | ⟨2, _⟩ => exact (Nat.zero_add _).symm))

/-- A stack of stacks of matrices cut to member `l` and the unit axis dropped reads, at `(r, i, j)`, the stack at
    `(l, r, i, j)`. -/
theorem stack4_apply {n m a b : Nat} (l : Nat) (X : (⟨4, ![n, m, a, b]⟩ : Shape).Idx → α)
    (h : (⟨4, ![n, m, a, b]⟩ : Shape).Slices ![l, 0, 0, 0] ⟨4, ![1, m, a, b]⟩)
    (hc : (⟨4, ![1, m, a, b]⟩ : Shape).ShapeCasts ⟨3, ![m, a, b]⟩) (k : Fin n) (hk : k.val = l)
    (r : Fin m) (i : Fin a) (j : Fin b) :
    shapeCast ⟨3, ![m, a, b]⟩ (extractStridedSlice ⟨4, ![1, m, a, b]⟩ ![l, 0, 0, 0] X h) hc (ix3 r i j)
      = X (ix4 k r i j) :=
  (shapeCast_1abc_abc_apply _ hc r i j).trans
    (extractStridedSlice_apply _ X h _ (ix4 k r i j) (fun ax => by
      match ax with
      | ⟨0, _⟩ => rw [hk]; rfl
      | ⟨1, _⟩ => exact (Nat.zero_add _).symm
      | ⟨2, _⟩ => exact (Nat.zero_add _).symm
      | ⟨3, _⟩ => exact (Nat.zero_add _).symm))

/-- Member `l` of a stack of stacks of matrices, then matrix `r` of that member, reads, at `(i, j)`, the stack at
    `(l, r, i, j)`. -/
theorem stack43_apply {n m a b : Nat} (l r : Nat) (X : (⟨4, ![n, m, a, b]⟩ : Shape).Idx → α)
    (h4 : (⟨4, ![n, m, a, b]⟩ : Shape).Slices ![l, 0, 0, 0] ⟨4, ![1, m, a, b]⟩)
    (hc4 : (⟨4, ![1, m, a, b]⟩ : Shape).ShapeCasts ⟨3, ![m, a, b]⟩)
    (h3 : (⟨3, ![m, a, b]⟩ : Shape).Slices ![r, 0, 0] ⟨3, ![1, a, b]⟩)
    (hc3 : (⟨3, ![1, a, b]⟩ : Shape).ShapeCasts ⟨2, ![a, b]⟩)
    (kl : Fin n) (hl : kl.val = l) (kr : Fin m) (hr : kr.val = r) (i : Fin a) (j : Fin b) :
    shapeCast ⟨2, ![a, b]⟩ (extractStridedSlice ⟨3, ![1, a, b]⟩ ![r, 0, 0]
        (shapeCast ⟨3, ![m, a, b]⟩ (extractStridedSlice ⟨4, ![1, m, a, b]⟩ ![l, 0, 0, 0] X h4) hc4) h3) hc3 (ix2 i j)
      = X (ix4 kl kr i j) :=
  (stack3_apply r _ h3 hc3 kr hr i j).trans (stack4_apply l X h4 hc4 kl hl kr i j)

end Stack

/-! ## Sums that agree term by term -/

/-- Six extended reals added left to right agree when they agree term by term. -/
theorem add6_congr {a b c d f g a' b' c' d' f' g' : EReal} (ha : a = a') (hb : b = b') (hc : c = c') (hd : d = d')
    (hf : f = f') (hg : g = g') : a + b + c + d + f + g = a' + b' + c' + d' + f' + g' := by
  rw [ha, hb, hc, hd, hf, hg]

variable [Cert.KernelIdeal.Facts₀] [Cert.ReferenceIdeal.Facts₀]

/-! ## The mean aggregate -/

/-- The reference's mean aggregate is the mathematics' mean aggregate: the same chain of host operations. -/
theorem rmean_eq (r : BitVec 32) (x : FVec Ideal Cert.ReferenceIdeal.S100000x128 .f32)
    (e : IVec Cert.ReferenceIdeal.S2x640000 32) (t : IVec Cert.ReferenceIdeal.S640000 32) :
    Cert.Rgcn.Ref.rmean r x e t = Cert.Rgcn.mean r x e t := by
  unfold Cert.Rgcn.Ref.rmean Cert.Rgcn.mean Cert.Rgcn.mask Cert.Rgcn.srcCol Cert.Rgcn.dstCol
  rfl

/-! ## One layer at an index -/

section Layer
open Cert.ReferenceIdeal Cert.ReferenceIdeal.Facts₀

/-- A sum of products over the contracted coordinate is the row-by-column product with any matrix that has the same
    entries in column `q`. -/
theorem mm_of_entries (x : S100000x128.Idx → EReal) (W w : S128x128.Idx → EReal) (p : Fin 100000) (q : Fin 128)
    (h : ∀ k : Fin 128, W (ix2 k q) = w (ix2 k q)) :
    (∑ k : Fin 128, x (ix2 p k) * W (ix2 k q)) = Cert.Rgcn.mm x w p q := by
  unfold Cert.Rgcn.mm
  exact Finset.sum_congr rfl fun k _ => congrArg (fun v => x (ix2 p k) * v) (h k)

/-- The reference's layer before its clamp, over any five left operands, five matrices and a bias row, at `(p, q)`:
    the bias entry, plus the five row-by-column sums in order. -/
theorem refPre_apply (x m0 m1 m2 m3 : FVec Ideal S100000x128 .f32) (R W0 W1 W2 W3 : FVec Ideal S128x128 .f32)
    (B : FVec Ideal S128 .f32) (p : Fin 100000) (q : Fin 128) :
    addf (addf (addf (addf (addf (Host.dotGeneral (F := Ideal) dot_S100000x128_S128x128_S100000x128_1_0_0_1_n_n none x R)
        (broadcastInDim S100000x128 ![0, 1] bcast_S1x128_S100000x128_0_1 (broadcastInDim S1x128 ![1] bcast_S128_S1x128_1 B)))
        (Host.dotGeneral (F := Ideal) dot_S100000x128_S128x128_S100000x128_1_0_0_1_n_n none m0 W0))
        (Host.dotGeneral (F := Ideal) dot_S100000x128_S128x128_S100000x128_1_0_0_1_n_n none m1 W1))
        (Host.dotGeneral (F := Ideal) dot_S100000x128_S128x128_S100000x128_1_0_0_1_n_n none m2 W2))
        (Host.dotGeneral (F := Ideal) dot_S100000x128_S128x128_S100000x128_1_0_0_1_n_n none m3 W3) (ix2 p q)
      = B (ix1 q) + (∑ k : Fin 128, x (ix2 p k) * R (ix2 k q)) + (∑ k : Fin 128, m0 (ix2 p k) * W0 (ix2 k q))
          + (∑ k : Fin 128, m1 (ix2 p k) * W1 (ix2 k q)) + (∑ k : Fin 128, m2 (ix2 p k) * W2 (ix2 k q))
          + (∑ k : Fin 128, m3 (ix2 p k) * W3 (ix2 k q)) := by
  have hd : ∀ (A : FVec Ideal S100000x128 .f32) (W : FVec Ideal S128x128 .f32),
      Host.dotGeneral (F := Ideal) dot_S100000x128_S128x128_S100000x128_1_0_0_1_n_n none A W (ix2 p q)
        = ∑ k : Fin 128, A (ix2 p k) * W (ix2 k q) := fun A W =>
    Cert.Dense.dotGeneral_apply dot_S100000x128_S128x128_S100000x128_1_0_0_1_n_n.wf none A W p q
  have hb : broadcastInDim S100000x128 ![0, 1] bcast_S1x128_S100000x128_0_1
      (broadcastInDim S1x128 ![1] bcast_S128_S1x128_1 B) (ix2 p q) = B (ix1 q) :=
    Cert.Dense.hostRowBroadcast_apply B _ _ p q
  rw [addf_apply, addf_apply, addf_apply, addf_apply, addf_apply, hd x R, hd m0 W0, hd m1 W1, hd m2 W2, hd m3 W3, hb,
    add_comm (∑ k : Fin 128, x (ix2 p k) * R (ix2 k q)) (B (ix1 q))]

/-- The reference's layer `l` before its clamp, over any four aggregates, at `(p, q)`, is the mathematics' layer
    `l` before its clamp: the weight slices read the stacks at `l`. -/
theorem pre_eq (l : Nat) (kl : Fin 3) (hl : kl.val = l) (x m0 m1 m2 m3 : FVec Ideal S100000x128 .f32)
    (a3 : FVec Ideal S3x4x128x128 .f32) (a4 : FVec Ideal S3x128x128 .f32) (a5 : FVec Ideal S3x128 .f32)
    (hW : S3x4x128x128.Slices ![l, 0, 0, 0] S1x4x128x128) (hR : S3x128x128.Slices ![l, 0, 0] S1x128x128)
    (hB : S3x128.Slices ![l, 0] S1x128) (p : Fin 100000) (q : Fin 128) :
    (addf (addf (addf (addf (addf (Host.dotGeneral (F := Ideal) dot_S100000x128_S128x128_S100000x128_1_0_0_1_n_n none x (shapeCast _ (extractStridedSlice S1x128x128 ![l, 0, 0] a4 hR) shapeCasts_S1x128x128_S128x128)) (broadcastInDim S100000x128 ![0, 1] bcast_S1x128_S100000x128_0_1 (broadcastInDim S1x128 ![1] bcast_S128_S1x128_1 (shapeCast _ (extractStridedSlice S1x128 ![l, 0] a5 hB) shapeCasts_S1x128_S128)))) (Host.dotGeneral (F := Ideal) dot_S100000x128_S128x128_S100000x128_1_0_0_1_n_n none m0 (shapeCast _ (extractStridedSlice S1x128x128 ![0, 0, 0] (shapeCast _ (extractStridedSlice S1x4x128x128 ![l, 0, 0, 0] a3 hW) shapeCasts_S1x4x128x128_S4x128x128) slices_S4x128x128_S1x128x128_0_0_0) shapeCasts_S1x128x128_S128x128))) (Host.dotGeneral (F := Ideal) dot_S100000x128_S128x128_S100000x128_1_0_0_1_n_n none m1 (shapeCast _ (extractStridedSlice S1x128x128 ![1, 0, 0] (shapeCast _ (extractStridedSlice S1x4x128x128 ![l, 0, 0, 0] a3 hW) shapeCasts_S1x4x128x128_S4x128x128) slices_S4x128x128_S1x128x128_1_0_0) shapeCasts_S1x128x128_S128x128))) (Host.dotGeneral (F := Ideal) dot_S100000x128_S128x128_S100000x128_1_0_0_1_n_n none m2 (shapeCast _ (extractStridedSlice S1x128x128 ![2, 0, 0] (shapeCast _ (extractStridedSlice S1x4x128x128 ![l, 0, 0, 0] a3 hW) shapeCasts_S1x4x128x128_S4x128x128) slices_S4x128x128_S1x128x128_2_0_0) shapeCasts_S1x128x128_S128x128))) (Host.dotGeneral (F := Ideal) dot_S100000x128_S128x128_S100000x128_1_0_0_1_n_n none m3 (shapeCast _ (extractStridedSlice S1x128x128 ![3, 0, 0] (shapeCast _ (extractStridedSlice S1x4x128x128 ![l, 0, 0, 0] a3 hW) shapeCasts_S1x4x128x128_S4x128x128) slices_S4x128x128_S1x128x128_3_0_0) shapeCasts_S1x128x128_S128x128))) (ix2 p q)
      = Cert.Rgcn.pre x m0 m1 m2 m3 (Cert.Rgcn.rootW a4 kl) (Cert.Rgcn.relW a3 kl 0) (Cert.Rgcn.relW a3 kl 1)
          (Cert.Rgcn.relW a3 kl 2) (Cert.Rgcn.relW a3 kl 3) (Cert.Rgcn.biasW a5 kl) p q := by
  refine (refPre_apply x m0 m1 m2 m3 _ _ _ _ _ _ p q).trans ?_
  unfold Cert.Rgcn.pre
  refine add6_congr ?_ ?_ ?_ ?_ ?_ ?_
  · exact stack2_apply l a5 hB _ kl hl q
  · exact mm_of_entries x _ _ p q fun k => stack3_apply l a4 hR _ kl hl k q
  · exact mm_of_entries m0 _ _ p q fun k => stack43_apply l 0 a3 hW _ _ _ kl hl 0 rfl k q
  · exact mm_of_entries m1 _ _ p q fun k => stack43_apply l 1 a3 hW _ _ _ kl hl 1 rfl k q
  · exact mm_of_entries m2 _ _ p q fun k => stack43_apply l 2 a3 hW _ _ _ kl hl 2 rfl k q
  · exact mm_of_entries m3 _ _ p q fun k => stack43_apply l 3 a3 hW _ _ _ kl hl 3 rfl k q

end Layer

/-! ## The three layers and the network -/

/-- The reference's layer 0 is the mathematics' layer 0 (clamped below at 0). -/
theorem refL0_eq (e : IVec Cert.ReferenceIdeal.S2x640000 32) (t : IVec Cert.ReferenceIdeal.S640000 32)
    (x : FVec Ideal Cert.ReferenceIdeal.S100000x128 .f32) (a3 : FVec Ideal Cert.ReferenceIdeal.S3x4x128x128 .f32)
    (a4 : FVec Ideal Cert.ReferenceIdeal.S3x128x128 .f32) (a5 : FVec Ideal Cert.ReferenceIdeal.S3x128 .f32) :
    Cert.Rgcn.Ref.refL0 e t x a3 a4 a5 = Cert.Rgcn.step true 0 e t a3 a4 a5 x := by
  funext i
  obtain ⟨p, q, rfl⟩ : ∃ (p : Fin 100000) (q : Fin 128), i = ix2 p q := ⟨i 0, i 1, eq_ix2 i⟩
  unfold Cert.Rgcn.Ref.refL0
  refine (Cert.Dense.hostRelu_apply _ _ (ix2 p q)).trans ?_
  refine (congrArg (fun v => max v 0) (pre_eq 0 0 rfl x _ _ _ _ a3 a4 a5 _ _ _ p q)).trans ?_
  rw [rmean_eq, rmean_eq, rmean_eq, rmean_eq]
  rfl

/-- The reference's layer 1 is the mathematics' layer 1 (clamped below at 0). -/
theorem refL1_eq (e : IVec Cert.ReferenceIdeal.S2x640000 32) (t : IVec Cert.ReferenceIdeal.S640000 32)
    (x : FVec Ideal Cert.ReferenceIdeal.S100000x128 .f32) (a3 : FVec Ideal Cert.ReferenceIdeal.S3x4x128x128 .f32)
    (a4 : FVec Ideal Cert.ReferenceIdeal.S3x128x128 .f32) (a5 : FVec Ideal Cert.ReferenceIdeal.S3x128 .f32) :
    Cert.Rgcn.Ref.refL1 e t x a3 a4 a5 = Cert.Rgcn.step true 1 e t a3 a4 a5 x := by
  funext i
  obtain ⟨p, q, rfl⟩ : ∃ (p : Fin 100000) (q : Fin 128), i = ix2 p q := ⟨i 0, i 1, eq_ix2 i⟩
  unfold Cert.Rgcn.Ref.refL1
  refine (Cert.Dense.hostRelu_apply _ _ (ix2 p q)).trans ?_
  refine (congrArg (fun v => max v 0) (pre_eq 1 1 rfl x _ _ _ _ a3 a4 a5 _ _ _ p q)).trans ?_
  rw [rmean_eq, rmean_eq, rmean_eq, rmean_eq]
  rfl

/-- The reference's layer 2 is the mathematics' layer 2 (not clamped). -/
theorem refL2_eq (e : IVec Cert.ReferenceIdeal.S2x640000 32) (t : IVec Cert.ReferenceIdeal.S640000 32)
    (x : FVec Ideal Cert.ReferenceIdeal.S100000x128 .f32) (a3 : FVec Ideal Cert.ReferenceIdeal.S3x4x128x128 .f32)
    (a4 : FVec Ideal Cert.ReferenceIdeal.S3x128x128 .f32) (a5 : FVec Ideal Cert.ReferenceIdeal.S3x128 .f32) :
    Cert.Rgcn.Ref.refL2 e t x a3 a4 a5 = Cert.Rgcn.step false 2 e t a3 a4 a5 x := by
  funext i
  obtain ⟨p, q, rfl⟩ : ∃ (p : Fin 100000) (q : Fin 128), i = ix2 p q := ⟨i 0, i 1, eq_ix2 i⟩
  unfold Cert.Rgcn.Ref.refL2
  refine (pre_eq 2 2 rfl x _ _ _ _ a3 a4 a5 _ _ _ p q).trans ?_
  rw [rmean_eq, rmean_eq, rmean_eq, rmean_eq]
  rfl

/-- The reference network is the network of the mathematics. -/
theorem refNet_eq (e : IVec Cert.ReferenceIdeal.S2x640000 32) (t : IVec Cert.ReferenceIdeal.S640000 32)
    (x : FVec Ideal Cert.ReferenceIdeal.S100000x128 .f32) (a3 : FVec Ideal Cert.ReferenceIdeal.S3x4x128x128 .f32)
    (a4 : FVec Ideal Cert.ReferenceIdeal.S3x128x128 .f32) (a5 : FVec Ideal Cert.ReferenceIdeal.S3x128 .f32) :
    Cert.Rgcn.Ref.refNet e t x a3 a4 a5 = Cert.Rgcn.net e t x a3 a4 a5 := by
  unfold Cert.Rgcn.Ref.refNet Cert.Rgcn.net
  rw [refL0_eq, refL1_eq, refL2_eq]

end Cert.Rgcn.RefMath

end
-- ==== Proof.lean ====
/-
  The certificate of the three-layer relational graph convolution: the Pallas program (three rounds of host
  aggregation and one fused-layer launch each) against the plain reference, over the extended reals.

  Both programs end with the result array at ONE function of the argument arrays, `Cert.Rgcn.net`: at each layer,
  node p, feature q,   bias q + ∑ₖ x(p,k)·root(k,q) + ∑ᵣ ∑ₖ meanᵣ(p,k)·Wᵣ(k,q),   clamped below at 0 on the first two
  layers, where meanᵣ is the per-relation mean aggregate of the gathered source rows — the same chain of host
  operations in both programs, carried as one function and never opened.  The kernel's side: each launch's 25
  blocks tile the output array with the layer function of the arrays the launch found, and each host stretch
  leaves the aggregates and the weight slices the launch takes.  The reference's side: its run read one layer's
  stretch at a time, each layer's composed host operations read at an index; the two differ by the order of one
  addition (bias first against bias last), which commutes on the extended reals.  No step needs finiteness, so the
  precondition is never opened.  The ideal pass rewrote nothing: `preserves` is trivial.
-/
import proofs.«164069_j28346784153940_1_alg».proof.Defs
import proofs.«164069_j28346784153940_1_alg».proof.Proof.Gen.Kernel
import proofs.«164069_j28346784153940_1_alg».proof.Proof.Gen.Kernel.Skeleton
import proofs.«164069_j28346784153940_1_alg».proof.Proof.Gen.Kernel.Launch
import proofs.«164069_j28346784153940_1_alg».proof.Proof.Gen.Kernel.Points
import proofs.«164069_j28346784153940_1_alg».proof.Proof.Gen.Kernel.Frame
import proofs.«164069_j28346784153940_1_alg».proof.Proof.Gen.KernelIdeal
import proofs.«164069_j28346784153940_1_alg».proof.Proof.Gen.KernelIdeal.Skeleton
import proofs.«164069_j28346784153940_1_alg».proof.Proof.Gen.KernelIdeal.Launch
import proofs.«164069_j28346784153940_1_alg».proof.Proof.Gen.KernelIdeal.Points
import proofs.«164069_j28346784153940_1_alg».proof.Proof.Gen.KernelIdeal.Frame
import proofs.«164069_j28346784153940_1_alg».proof.Proof.Gen.ReferenceIdeal
import proofs.«164069_j28346784153940_1_alg».proof.Proof.Gen.Pre_finite_inputs
import proofs.«164069_j28346784153940_1_alg».proof.Proof.FrameOut
import proofs.«164069_j28346784153940_1_alg».proof.Proof.KernelValue
import proofs.«164069_j28346784153940_1_alg».proof.Proof.RefStretch
import proofs.«164069_j28346784153940_1_alg».proof.Proof.RefMath
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run (Cert.ReferenceIdeal.defs (F := Ideal)) _ _).mono (fun _ h c => (h c).2) (Cert.Rgcn.RefRun.ref_run m ρ)

/-- Nothing was rewritten on the way to the idealized kernel. -/
theorem preserves : Cert.preserves_Kernel_KernelIdeal := trivial

/-- From memories agreeing on the arguments both programs end with the result at the network of the arguments. -/
theorem algebraic : Cert.algebraic_KernelIdeal_ReferenceIdeal := by
  intro m ρ m' ρ' _ hagree
  refine ⟨fun c => Cert.Rgcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run (Cert.KernelIdeal.defs (F := Ideal)) _ _).mono
      (fun r h c => ⟨(h c).1.trans (Cert.Rgcn.Kernel.result m ρ c), (h c).2⟩)
      (Cert.KernelIdeal.GenOut.frame_out m ρ)
  · refine (θ_run (Cert.ReferenceIdeal.defs (F := Ideal)) _ _).mono (fun r h c => ⟨(h c).1.trans ?_, (h c).2⟩)
      (Cert.Rgcn.RefRun.ref_run m' ρ')
    rw [Cert.Rgcn.RefMath.refNet_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
